-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S7x256x128 : Shape := ⟨3, ![7, 256, 128]⟩
abbrev S7x128 : Shape := ⟨2, ![7, 128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S7x256x128 : S_.BroadcastsInDim S7x256x128 (![] : Fin 0 → Fin S7x256x128.rank)
  reducesTo_S7x256x128_S_d0_1_2 : S7x256x128.ReducesTo [0, 1, 2] S_
  bcast_S_S7x128 : S_.BroadcastsInDim S7x128 (![] : Fin 0 → Fin S7x128.rank)
  reducesTo_S7x128_S_d0_1 : S7x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S64 .f32) (main_v13 : IVec S_ 1) (main_v16 : IVec S7x128 1) : IVec S_ 1 :=
  let main_c_5 : IVec S_ 1 := constantI S_ 1 1#1
  let main_v17 : IVec S_ 1 := (fun x v => Host.reduce IntOp.andi x v reducesTo_S7x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x256 .f32) (main_arg1 : IVec S800000 32) (main_arg2 : IVec S800000 32) (main_arg3 : FVec F S800000 .f32) (main_arg4 : FVec F S7x256x128 .f32) (main_arg5 : FVec F S7x128 .f32) (main_arg6 : FVec F S128x64 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S7x256x128 .f32 := Host.absf main_arg4
  let main_cst_2 : FVec F S_ .f32 := constant S_ .f32 0x7F800000#32
  let main_v10 : FVec F S7x256x128 .f32 := broadcastInDim S7x256x128 ![] bcast_S_S7x256x128 main_cst_2
  let main_v11 : IVec S7x256x128 1 := cmpf .olt main_v9 main_v10
  let main_c_3 : IVec S_ 1 := constantI S_ 1 1#1
  let main_v12 : IVec S_ 1 := (fun x v => Host.reduce IntOp.andi x v reducesTo_S7x256x128_S_d0_1_2 h_S_) main_v11 main_c_3
  let main_v13 : IVec S_ 1 := andi main_v8 main_v12
  let main_v14 : FVec F S7x128 .f32 := Host.absf main_arg5
  let main_cst_4 : FVec F S_ .f32 := constant S_ .f32 0x7F800000#32
  let main_v15 : FVec F S7x128 .f32 := broadcastInDim S7x128 ![] bcast_S_S7x128 main_cst_4
  let main_v16 : IVec S7x128 1 := cmpf .olt main_v14 main_v15
  fn_part1 (F := F) main_arg6 main_arg7 main_v13 main_v16
-- ==== Kernel.lean ====
abbrev S50000x256 : Shape := ⟨2, ![50000, 256]⟩
abbrev S800000 : Shape := ⟨1, ![800000]⟩
abbrev S7x256x128 : Shape := ⟨3, ![7, 256, 128]⟩
abbrev S7x128 : Shape := ⟨2, ![7, 128]⟩
abbrev S128x64 : Shape := ⟨2, ![128, 64]⟩
abbrev S64 : Shape := ⟨1, ![64]⟩
abbrev S_ : Shape := ⟨0, ![]⟩
abbrev S256x128 : Shape := ⟨2, ![256, 128]⟩
abbrev S128 : Shape := ⟨1, ![128]⟩
abbrev S1x128 : Shape := ⟨2, ![1, 128]⟩
abbrev S50000x128 : Shape := ⟨2, ![50000, 128]⟩
abbrev S5000x256 : Shape := ⟨2, ![5000, 256]⟩
abbrev S5000x128 : Shape := ⟨2, ![5000, 128]⟩
abbrev S800000x1 : Shape := ⟨2, ![800000, 1]⟩
abbrev S800000x128 : Shape := ⟨2, ![800000, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 49
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S7x256x128, .f32⟩
  | .hbm, ⟨5, _⟩ => ⟨S7x128, .f32⟩
  | .hbm, ⟨6, _⟩ => ⟨S128x64, .f32⟩
  | .hbm, ⟨7, _⟩ => ⟨S64, .f32⟩
  | .hbm, ⟨8, _⟩ => ⟨S_, .f32⟩
  | .hbm, ⟨9, _⟩ => ⟨S256x128, .f32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S50000x128, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x1, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x64, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .f32⟩
  | .hbm, ⟨40, _⟩ => ⟨S800000x1, .f32⟩
  | .hbm, ⟨41, _⟩ => ⟨S800000x64, .f32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S1x64, .f32⟩
  | .hbm, ⟨48, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  reducesTo_S7x256x128_S256x128_d0 : S7x256x128.ReducesTo [0] S256x128
  h_S_ : 0 < S_.numel
  reducesTo_S7x128_S128_d0 : S7x128.ReducesTo [0] S128
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v16) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000 : Shape := ⟨1, ![800000]⟩
abbrev S7x256x128 : Shape := ⟨3, ![7, 256, 128]⟩
abbrev S7x128 : Shape := ⟨2, ![7, 128]⟩
abbrev S128x64 : Shape := ⟨2, ![128, 64]⟩
abbrev S64 : Shape := ⟨1, ![64]⟩
abbrev S_ : Shape := ⟨0, ![]⟩
abbrev S50000x128 : Shape := ⟨2, ![50000, 128]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S800000x1 : Shape := ⟨2, ![800000, 1]⟩
abbrev S800000x128 : Shape := ⟨2, ![800000, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 208
  | .vmem => 0
  | .smem => 0
  | _ => 0

abbrev hbmTy0_0 (i : Nat) : BufTy := match i % 128 with
  | 0 => ⟨S50000x256, .f32⟩
  | 1 => ⟨S800000, .i32⟩
  | 2 => ⟨S800000, .i32⟩
  | 3 => ⟨S800000, .f32⟩
  | 4 => ⟨S7x256x128, .f32⟩
  | 5 => ⟨S7x128, .f32⟩
  | 6 => ⟨S128x64, .f32⟩
  | 7 => ⟨S64, .f32⟩
  | 8 => ⟨S_, .f32⟩
  | 9 => ⟨S50000x128, .f32⟩
  | 10 => ⟨S1x256x128, .f32⟩
  | 11 => ⟨S256x128, .f32⟩
  | 12 => ⟨S1x128, .f32⟩
  | 13 => ⟨S128, .f32⟩
  | 14 => ⟨S50000x128, .f32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S800000x1, .f32⟩
  | 25 => ⟨S800000x128, .f32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S1x128, .f32⟩
  | 32 => ⟨S50000x128, .f32⟩
  | 33 => ⟨S50000x128, .f32⟩
  | 34 => ⟨S50000x128, .f32⟩
  | 35 => ⟨S1x256x128, .f32⟩
  | 36 => ⟨S256x128, .f32⟩
  | 37 => ⟨S1x128, .f32⟩
  | 38 => ⟨S128, .f32⟩
  | 39 => ⟨S50000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S800000x1, .f32⟩
  | 50 => ⟨S800000x128, .f32⟩
  | 51 => ⟨S800000x128, .f32⟩
  | 52 => ⟨S_, .f32⟩
  | 53 => ⟨S50000x128, .f32⟩
  | 54 => ⟨S800000x1, .i32⟩
  | 55 => ⟨S50000x128, .f32⟩
  | 56 => ⟨S1x128, .f32⟩
  | 57 => ⟨S50000x128, .f32⟩
  | 58 => ⟨S50000x128, .f32⟩
  | 59 => ⟨S50000x128, .f32⟩
  | 60 => ⟨S1x256x128, .f32⟩
  | 61 => ⟨S256x128, .f32⟩
  | 62 => ⟨S1x128, .f32⟩
  | 63 => ⟨S128, .f32⟩
  | 64 => ⟨S50000x128, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S800000x128, .f32⟩
  | 74 => ⟨S800000x1, .f32⟩
  | 75 => ⟨S800000x128, .f32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S1x128, .f32⟩
  | 82 => ⟨S50000x128, .f32⟩
  | 83 => ⟨S50000x128, .f32⟩
  | 84 => ⟨S50000x128, .f32⟩
  | 85 => ⟨S1x256x128, .f32⟩
  | 86 => ⟨S256x128, .f32⟩
  | 87 => ⟨S1x128, .f32⟩
  | 88 => ⟨S128, .f32⟩
  | 89 => ⟨S50000x128, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x1, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S1x128, .f32⟩
  | 107 => ⟨S50000x128, .f32⟩
  | 108 => ⟨S50000x128, .f32⟩
  | 109 => ⟨S50000x128, .f32⟩
  | 110 => ⟨S1x256x128, .f32⟩
  | 111 => ⟨S256x128, .f32⟩
  | 112 => ⟨S1x128, .f32⟩
  | 113 => ⟨S128, .f32⟩
  | 114 => ⟨S50000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x1, .f32⟩
  | 125 => ⟨S800000x128, .f32⟩
  | 126 => ⟨S800000x128, .f32⟩
  | 127 => ⟨S_, .f32⟩
  | _ => ⟨S50000x256, .f32⟩

abbrev hbmTy0_1 (i : Nat) : BufTy := match i % 128 with
  | 0 => ⟨S50000x128, .f32⟩
  | 1 => ⟨S800000x1, .i32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S1x256x128, .f32⟩
  | 8 => ⟨S256x128, .f32⟩
  | 9 => ⟨S1x128, .f32⟩
  | 10 => ⟨S128, .f32⟩
  | 11 => ⟨S50000x128, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000x128, .f32⟩
  | 21 => ⟨S800000x1, .f32⟩
  | 22 => ⟨S800000x128, .f32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S1x128, .f32⟩
  | 29 => ⟨S50000x128, .f32⟩
  | 30 => ⟨S50000x128, .f32⟩
  | 31 => ⟨S50000x128, .f32⟩
  | 32 => ⟨S1x256x128, .f32⟩
  | 33 => ⟨S256x128, .f32⟩
  | 34 => ⟨S1x128, .f32⟩
  | 35 => ⟨S128, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S800000x1, .f32⟩
  | 47 => ⟨S800000x128, .f32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S1x128, .f32⟩
  | 54 => ⟨S50000x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S50000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S800000x1, .f32⟩
  | 71 => ⟨S800000x64, .f32⟩
  | 72 => ⟨S800000x64, .f32⟩
  | 73 => ⟨S_, .f32⟩
  | 74 => ⟨S50000x64, .f32⟩
  | 75 => ⟨S800000x1, .i32⟩
  | 76 => ⟨S50000x64, .f32⟩
  | 77 => ⟨S1x64, .f32⟩
  | 78 => ⟨S50000x64, .f32⟩
  | 79 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_5 : Ref sig .tc := ⟨.hbm, 65, rfl⟩
abbrev main_v50 : Ref sig .tc := ⟨.hbm, 66, rfl⟩
abbrev main_v51 : Ref sig .tc := ⟨.hbm, 67, rfl⟩
abbrev main_c_6 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_7 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_c_8 : Ref sig .tc := ⟨.hbm, 90, rfl⟩
abbrev main_v72 : Ref sig .tc := ⟨.hbm, 91, rfl⟩
abbrev main_v73 : Ref sig .tc := ⟨.hbm, 92, rfl⟩
abbrev main_c_9 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_10 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_c_11 : Ref sig .tc := ⟨.hbm, 115, rfl⟩
abbrev main_v94 : Ref sig .tc := ⟨.hbm, 116, rfl⟩
abbrev main_v95 : Ref sig .tc := ⟨.hbm, 117, rfl⟩
abbrev main_c_12 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_13 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_c_14 : Ref sig .tc := ⟨.hbm, 140, rfl⟩
abbrev main_v116 : Ref sig .tc := ⟨.hbm, 141, rfl⟩
abbrev main_v117 : Ref sig .tc := ⟨.hbm, 142, rfl⟩
abbrev main_c_15 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_cst_16 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_c_17 : Ref sig .tc := ⟨.hbm, 165, rfl⟩
abbrev main_v138 : Ref sig .tc := ⟨.hbm, 166, rfl⟩
abbrev main_v139 : Ref sig .tc := ⟨.hbm, 167, rfl⟩
abbrev main_c_18 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_cst_19 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_call0_cst : Ref sig .tc := ⟨.hbm, 185, rfl⟩
abbrev main_call0_v0 : Ref sig .tc := ⟨.hbm, 186, rfl⟩
abbrev main_v155 : Ref sig .tc := ⟨.hbm, 187, rfl⟩
abbrev main_v156 : Ref sig .tc := ⟨.hbm, 188, rfl⟩
abbrev main_c_20 : Ref sig .tc := ⟨.hbm, 189, rfl⟩
abbrev main_v157 : Ref sig .tc := ⟨.hbm, 190, rfl⟩
abbrev main_v158 : Ref sig .tc := ⟨.hbm, 191, rfl⟩
abbrev main_c_21 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_22 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S7x256x128_S1x256x128_0_0_0 : S7x256x128.Slices ![0, 0, 0] S1x256x128
  shapeCasts_S1x256x128_S256x128 : S1x256x128.ShapeCasts S256x128
  slices_S7x128_S1x128_0_0 : S7x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S7x256x128_S1x256x128_1_0_0 : S7x256x128.Slices ![1, 0, 0] S1x256x128
  slices_S7x128_S1x128_1_0 : S7x128.Slices ![1, 0] S1x128
  slices_S7x256x128_S1x256x128_2_0_0 : S7x256x128.Slices ![2, 0, 0] S1x256x128
  slices_S7x128_S1x128_2_0 : S7x128.Slices ![2, 0] S1x128
  slices_S7x256x128_S1x256x128_3_0_0 : S7x256x128.Slices ![3, 0, 0] S1x256x128
  slices_S7x128_S1x128_3_0 : S7x128.Slices ![3, 0] S1x128
  slices_S7x256x128_S1x256x128_4_0_0 : S7x256x128.Slices ![4, 0, 0] S1x256x128
  slices_S7x128_S1x128_4_0 : S7x128.Slices ![4, 0] S1x128
  slices_S7x256x128_S1x256x128_5_0_0 : S7x256x128.Slices ![5, 0, 0] S1x256x128
  slices_S7x128_S1x128_5_0 : S7x128.Slices ![5, 0] S1x128
  slices_S7x256x128_S1x256x128_6_0_0 : S7x256x128.Slices ![6, 0, 0] S1x256x128
  slices_S7x128_S1x128_6_0 : S7x128.Slices ![6, 0] S1x128
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KernelRun.lean ====
/-
  The idealized kernel's run, with its final memory named.

  The program is three tiled regions (a matrix product, a fused bias / rectifier / matrix product, a bias add) with
  stretches of host operations before and between them. Its contents at each boundary are a fold from the launch
  memory: a host stretch applies its operations, a region replaces each of its arrays by what its write-backs leave
  and keeps every other buffer. The fold's last value, the contents after the third region, is what every buffer that
  lives for the whole program holds in any final state: `run_final`. From it, `run_result` reads the result array
  and the eight argument arrays.
-/
import proofs.«157736_j88742614270553_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and in its final state every buffer that lives for the
    whole program holds the contents the fold through the segments ends at. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the result array and the arguments read off the final memory: the result holds the last boundary's
    contents at its buffer, every argument its launch contents. -/
theorem run_result : θ_run defs (onTc (τ := τ) (main (F := F))) ⟨m, fun _ => 0, ρ⟩ (fun r => ∀ c : Dev nD,
      r.2.mem ((c.tc : Thread nD τ).loc main_v32) = W6 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v32 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)
    (run_final m ρ)

end Cert.KernelIdeal.GcnRun

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.LibPropagate.lean ====
/-
  A graph propagation step commutes with a product by a matrix on the feature axis.

  One propagation step on an `[N, F]` array `h` is `h' (n, f) = ∑ { e : col e = n }  h (row e, f) · ν e`: a gather of whole
  rows (`row e`, clamped), a scale by the edge's coefficient `ν e`, and an accumulating scatter onto the rows `col e`
  (`hop`, over the dimension numbers of `RowOps`; `hop_apply` reads it at an index). The rows an edge reads and
  writes depend on the two index arrays only, never on the column `f`, so the step acts on each column separately
  and is linear in it. Hence, for REAL entries `r`, real coefficients `ν` and a real `[K, J]` matrix `w`,

      hop (r · w)  =  (hop r) · w          (`hop_contract`, with `hop_real`: the step of a real array is real)

  where `r · w` is the matrix product `contract r w (n, j) = ∑ k, r (n, k) · w (k, j)`: propagating the `J`-wide
  product is the product of the propagated `K`-wide array. The law under it is `RealSum.step_comm`; reality of the
  entries is what makes the product distribute over the extended reals' sums.

  Also here: the two broadcasts a printed step is made of, read at an index (`zeros_apply`: the zero array the
  scatter accumulates into; `rowBroadcast_apply`: an `[E]` array of coefficients spread along the columns of `[E, F]`).
-/
import proofs.«157736_j88742614270553_1_alg».proof.Proof.LibRowOps
import proofs.«157736_j88742614270553_1_alg».proof.Proof.LibRealSum
import Idealize.ShloMosaic.Lib.Pipeline.Value
import Idealize.ShloMosaic.PureOps.Ideal.Laws

noncomputable section

open scoped BigOperators

namespace Cert.Lib.Propagate

open Idealize.ShloMosaic Idealize.ShloMosaic.ValueIdx Cert.Lib.RowOps Cert.Lib.RealSum

variable {N E F K J : Nat}

/-- One propagation step at the ideal values: rows gathered by `rowI`, scaled entry by entry by `nB`, accumulated by
    `colI` into `zArr`. -/
def hop (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) :
    (⟨2, ![N, F]⟩ : Shape).Idx → EReal :=
  Ideal.hostScatterAdd (rowScatter N E F wfS) zArr colI
    (fun j => h ((rowGather N E F wfG).operandIdx j rowI) * nB j)

/-- The step read at `(n, f)`: what was there plus, over the edges `e` whose target reads `n`, the source row's entry in
    column `f` times the edge's coefficient there. -/
theorem hop_apply (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) (n : Fin N) (f : Fin F) :
    hop wfG wfS rowI colI zArr nB h (ix2 n f)
      = zArr (ix2 n f) + ∑ e ∈ Finset.univ.filter (fun e : Fin E => (colI (ix2 e 0)).toInt = (n.val : Int)),
          h (ix2 (clampRow hN rowI e) f) * nB (ix2 e f) := by
  unfold hop
  rw [scatterAdd_rows_apply]
  refine congrArg (zArr (ix2 n f) + ·) (Finset.sum_congr rfl fun e _ => ?_)
  show h ((rowGather N E F wfG).operandIdx (ix2 e f) rowI) * nB (ix2 e f) = _
  rw [rowGather_operandIdx hN]

/-- The step on real entries, as a real array. -/
def stepReal (hN : 0 < N) (rowI colI : IVec ⟨2, ![E, 1]⟩ 32) (ν : Fin E → ℝ)
    (r : (⟨2, ![N, F]⟩ : Shape).Idx → ℝ) : (⟨2, ![N, F]⟩ : Shape).Idx → ℝ :=
  fun x => ∑ e ∈ Finset.univ.filter (fun e : Fin E => (colI (ix2 e 0)).toInt = ((x 0).val : Int)),
    r (ix2 (clampRow hN rowI e) (⟨(x 1).val, idx2_lt1 x⟩ : Fin F)) * ν e

/-- The matrix product of a real `[N, K]` array with a real `[K, J]` matrix. -/
def contract (r : (⟨2, ![N, K]⟩ : Shape).Idx → ℝ) (w : (⟨2, ![K, J]⟩ : Shape).Idx → ℝ) :
    (⟨2, ![N, J]⟩ : Shape).Idx → ℝ :=
  fun y => ∑ k : Fin K, r (ix2 (⟨(y 0).val, idx2_lt0 y⟩ : Fin N) k) * w (ix2 k (⟨(y 1).val, idx2_lt1 y⟩ : Fin J))

/-- The coercion of an entry of the product is the sum of the coerced products. -/
theorem contract_coe (r : (⟨2, ![N, K]⟩ : Shape).Idx → ℝ) (w : (⟨2, ![K, J]⟩ : Shape).Idx → ℝ) (n : Fin N) (j : Fin J) :
    ((contract r w (ix2 n j) : ℝ) : EReal) = ∑ k : Fin K, (r (ix2 n k) : EReal) * (w (ix2 k j) : EReal) := by
  show ((∑ k : Fin K, r (ix2 n k) * w (ix2 k j) : ℝ) : EReal) = _
  rw [coe_sum]
  simp only [EReal.coe_mul]

/-- The step of a real array is the real array `stepReal`. -/
theorem hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (hz : ∀ i, zArr i = 0) (ν : Fin E → ℝ)
    (hn : ∀ e f, nB (ix2 e f) = (ν e : EReal)) (r : (⟨2, ![N, F]⟩ : Shape).Idx → ℝ) :
    hop wfG wfS rowI colI zArr nB (fun x => (r x : EReal)) = fun x => ((stepReal hN rowI colI ν r x : ℝ) : EReal) := by
  funext x
  obtain ⟨n, f, rfl⟩ : ∃ (n : Fin N) (f : Fin F), x = ix2 n f := ⟨x 0, x 1, eq_ix2 x⟩
  rw [hop_apply hN, hz]
  simp only [hn]
  exact step_real _ (fun e => r (ix2 (clampRow hN rowI e) f)) ν

/-- PROPAGATION COMMUTES WITH THE PRODUCT: the step of the `J`-wide product `r · w` is the product with `w` of the step
    of the `K`-wide array `r` — the same index arrays and coefficients on both widths. -/
theorem hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (rowI colI : IVec ⟨2, ![E, 1]⟩ 32) (zArr : (⟨2, ![N, J]⟩ : Shape).Idx → EReal)
    (nB : (⟨2, ![E, J]⟩ : Shape).Idx → EReal) (hz : ∀ i, zArr i = 0) (ν : Fin E → ℝ)
    (hn : ∀ e j, nB (ix2 e j) = (ν e : EReal))
    (r : (⟨2, ![N, K]⟩ : Shape).Idx → ℝ) (w : (⟨2, ![K, J]⟩ : Shape).Idx → ℝ) :
    hop wfG wfS rowI colI zArr nB (fun y => ((contract r w y : ℝ) : EReal))
      = fun y => ((contract (stepReal hN rowI colI ν r) w y : ℝ) : EReal) := by
  funext y
  obtain ⟨n, j, rfl⟩ : ∃ (n : Fin N) (j : Fin J), y = ix2 n j := ⟨y 0, y 1, eq_ix2 y⟩
  rw [hop_apply hN, hz]
  simp only [hn]
  exact step_comm _ (fun e k => r (ix2 (clampRow hN rowI e) k)) ν (fun k => w (ix2 k j))

/-! ## The step as a program prints it

A printed step is `Host.scatterAdd ds zArr colI (mulf (Host.gather dg h rowI) nB)` over the program's own dimension
records; when those are the row records of `RowOps` it is `hop`. Stated over arbitrary records equal to them, so that at
a program's literal shapes the printed term is met as it stands. -/

/-- The printed step is `hop`. -/
theorem host_hop_eq
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (h : FVec Ideal ⟨2, ![N, F]⟩ .f32) :
    Host.scatterAdd ds zArr colI (mulf (Host.gather dg h rowI) nB) = hop wfG wfS rowI colI zArr nB h := by
  subst hdg hds
  rfl

/-- The printed step of a real array is the real array `stepReal`. -/
theorem host_hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (hz : ∀ i, zArr i = 0) (ν : Fin E → ℝ) (hn : ∀ e f, nB (ix2 e f) = (ν e : EReal))
    (r : (⟨2, ![N, F]⟩ : Shape).Idx → ℝ) :
    Host.scatterAdd ds zArr colI (mulf (Host.gather dg (fun x => (r x : EReal)) rowI) nB)
      = fun x => ((stepReal hN rowI colI ν r x : ℝ) : EReal) :=
  (host_hop_eq wfG wfS dg ds hdg hds rowI colI zArr nB _).trans (hop_real hN wfG wfS rowI colI zArr nB hz ν hn r)

/-- The printed step of the `J`-wide product `r · w` is the product with `w` of the step of `r`. -/
theorem host_hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (dg : GatherDims ⟨2, ![N, J]⟩ ⟨2, ![E, 1]⟩ ⟨2, ![E, J]⟩) (ds : ScatterDims ⟨2, ![N, J]⟩ ⟨2, ![E, 1]⟩ ⟨2, ![E, J]⟩)
    (hdg : dg = rowGather N E J wfG) (hds : ds = rowScatter N E J wfS)
    (rowI colI : IVec ⟨2, ![E, 1]⟩ 32) (zArr : FVec Ideal ⟨2, ![N, J]⟩ .f32) (nB : FVec Ideal ⟨2, ![E, J]⟩ .f32)
    (hz : ∀ i, zArr i = 0) (ν : Fin E → ℝ) (hn : ∀ e j, nB (ix2 e j) = (ν e : EReal))
    (r : (⟨2, ![N, K]⟩ : Shape).Idx → ℝ) (w : (⟨2, ![K, J]⟩ : Shape).Idx → ℝ) :
    Host.scatterAdd ds zArr colI (mulf (Host.gather dg (fun y => ((contract r w y : ℝ) : EReal)) rowI) nB)
      = fun y => ((contract (stepReal hN rowI colI ν r) w y : ℝ) : EReal) :=
  (host_hop_eq wfG wfS dg ds hdg hds rowI colI zArr nB _).trans (hop_contract hN wfG wfS rowI colI zArr nB hz ν hn r w)

/-- The zero array an accumulating scatter starts from: the f32 zero word broadcast to any shape reads `0`. -/
theorem zeros_apply {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x00000000#32) i = 0 := by
  rw [broadcastInDim_apply _ h _ i ix0 (fun a => a.elim0)]
  exact Ideal.ofBits_zero_f32

/-- An `[E]` array spread over the columns of `[E, F]` (through `[E, 1]`) reads, at `(e, f)`, its entry `e`. -/
theorem rowBroadcast_apply {α : Type} (hE : E ≠ 1)
    (h1 : (⟨1, ![E]⟩ : Shape).BroadcastsInDim ⟨2, ![E, 1]⟩ (![0] : Fin 1 → Fin 2))
    (h2 : (⟨2, ![E, 1]⟩ : Shape).BroadcastsInDim ⟨2, ![E, F]⟩ (![0, 1] : Fin 2 → Fin 2))
    (x : (⟨1, ![E]⟩ : Shape).Idx → α) (e : Fin E) (f : Fin F) :
    broadcastInDim ⟨2, ![E, F]⟩ (![0, 1] : Fin 2 → Fin 2) h2 (broadcastInDim ⟨2, ![E, 1]⟩ (![0] : Fin 1 → Fin 2) h1 x) (ix2 e f)
      = x (ix1 e) := by
  rw [broadcastInDim_apply _ h2 _ (ix2 e f) (ix2 e (0 : Fin 1)) (fun a => match a with
    | ⟨0, _⟩ => by show e.val = if E = 1 then 0 else e.val; rw [if_neg hE]
    | ⟨1, _⟩ => by show 0 = if (1 : Nat) = 1 then 0 else f.val; rw [if_pos rfl])]
  rw [broadcastInDim_apply _ h1 _ (ix2 e (0 : Fin 1)) (ix1 e) (fun a => match a with
    | ⟨0, _⟩ => by show e.val = if E = 1 then 0 else e.val; rw [if_neg hE])]

end Cert.Lib.Propagate

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.Spec.lean ====
/-
  The array functions both programs are made of, at the ideal values.

  A two-layer graph convolution is built from four functions of rank-2 arrays of extended reals:

  * `matProd A B` — the matrix product, entry `(p, q)` the sum over `k` of `A (p, k) · B (k, q)`;
  * `addRow A b` — a one-row array `b` added to every row of `A`;
  * `relu A` — the entrywise maximum with zero;
  * the propagation step `hop` of `Lib.Propagate` (rows gathered along the edges' sources, scaled by the edge weights,
    added up at the edges' targets).

  The tiled program computes them block of rows by block of rows, the reference array by array; stated once here,
  both are compared against the same terms. Indices are built with `ix2` over literal extents, and a coordinate of an
  index `y` is re-typed by its bound (`idx2_lt0`, `idx2_lt1`).
-/
import proofs.«157736_j88742614270553_1_alg».proof.Proof.LibPropagate
import proofs.«157736_j88742614270553_1_alg».proof.Proof.LibPlainDot

noncomputable section

open scoped BigOperators

namespace Cert.Gcn

open Idealize.ShloMosaic Idealize.ShloMosaic.ValueIdx

/-- A rank-2 array of extended reals. -/
abbrev Arr (a b : Nat) : Type := (⟨2, ![a, b]⟩ : Shape).Idx → EReal

variable {M K N : Nat}

/-- The matrix product of an `M × K` array with a `K × N` one. -/
def matProd (A : Arr M K) (B : Arr K N) : Arr M N :=
  fun y => ∑ k : Fin K, A (ix2 (⟨(y 0).val, idx2_lt0 y⟩ : Fin M) k) * B (ix2 k (⟨(y 1).val, idx2_lt1 y⟩ : Fin N))

theorem matProd_apply (A : Arr M K) (B : Arr K N) (p : Fin M) (q : Fin N) :
    matProd A B (ix2 p q) = ∑ k : Fin K, A (ix2 p k) * B (ix2 k q) := rfl

/-- A one-row array added to every row. -/
def addRow (A : Arr M N) (b : Arr 1 N) : Arr M N :=
  fun y => A y + b (ix2 (0 : Fin 1) (⟨(y 1).val, idx2_lt1 y⟩ : Fin N))

theorem addRow_apply (A : Arr M N) (b : Arr 1 N) (p : Fin M) (q : Fin N) :
    addRow A b (ix2 p q) = A (ix2 p q) + b (ix2 (0 : Fin 1) q) := rfl

/-- The rectifier: the entrywise maximum with zero. -/
def relu (A : Arr M N) : Arr M N := fun y => max (A y) 0

theorem relu_apply (A : Arr M N) (y : (⟨2, ![M, N]⟩ : Shape).Idx) : relu A y = max (A y) 0 := rfl

/-- The host's `dot_general` of a plain product is `matProd`. -/
theorem dotGeneral_eq_matProd (d : DotDims ⟨2, ![M, K]⟩ ⟨2, ![K, N]⟩ ⟨2, ![M, N]⟩) (h : Cert.PlainDot.IsPlain d)
    (prec : Option ContractPrecision) (l : FVec Ideal ⟨2, ![M, K]⟩ .f32) (r : FVec Ideal ⟨2, ![K, N]⟩ .f32) :
    Host.dotGeneral d prec l r = matProd l r := by
  funext y
  obtain ⟨p, q, rfl⟩ : ∃ (p : Fin M) (q : Fin N), y = ix2 p q := ⟨y 0, y 1, eq_ix2 y⟩
  exact Cert.PlainDot.dotGeneral_apply d h prec l r p q

end Cert.Gcn

end
-- ==== Proof.Region0.lean ====
/-
  The first region: the matrix product of the node features with the summed branch weights, ten blocks of 5000 rows.

  Grid point `t` loads rows `5000·t … 5000·t + 4999` of the `[50000, 256]` features and the whole `[256, 128]` weight
  matrix, rounds both to bf16 (the identity at the ideal values), multiplies them into a zero accumulator and writes the
  `[5000, 128]` product back to the same rows of the output. Entry `(r, d)` of the output is the sum over `k` of feature
  `(r, k)` times weight `(k, d)`: it reads row `r` of the features and column `d` of the weights, and the ten blocks
  tile the rows. After the region the output array is `matProd` of the two input arrays as the region found them.
-/
import proofs.«157736_j88742614270553_1_alg».proof.Proof.Gen.KernelIdeal.Frame
import proofs.«157736_j88742614270553_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GcnRegion0

open Cert.KernelIdeal Cert.KernelIdeal.Gen Cert.KernelIdeal.Facts₀ Cert.KernelIdeal.Facts
open Idealize.ShloMosaic Idealize.ShloMosaic.TcCoe Idealize.SL.Sem Idealize.ShloMosaic.ValueIdx Cert.Gcn
open Idealize.ShloMosaic.Pipeline (Dat)

-- the TensorCore's buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The body's stored value at entry `(p, q)` of the block: the sum over `k` of the feature block's `(p, k)` times
    the weights' `(k, q)` — the roundings and the cast of a shape to itself drop out, the accumulator is zero. -/
theorem body_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  refine (Ideal.matmul_constant_zero_apply dot_S5000x256_S256x128_S5000x128_1_0_0_1_n_n none _ _ (ix2 p q)).trans ?_
  refine (Cert.PlainDot.sum_contr dot_S5000x256_S256x128_S5000x128_1_0_0_1_n_n ⟨rfl, rfl, rfl, rfl, rfl, rfl⟩ _ _ p q).trans ?_
  refine Finset.sum_congr rfl fun k _ => ?_
  rw [truncf_apply, truncf_apply, shapeCast_self]

/-- The same, for a block whose row `y 0` is row `i 0` of an array `A` and whose weights are an array `B`: the stored
    value at `y` is `matProd A B` at the array index `i` that `y` sits at. -/
theorem body_point (x0 : Vec Ideal S5000x256 .f32) (x1 : Vec Ideal S256x128 .f32) (A : Arr 50000 256) (B : Arr 256 128)
    (y : S5000x128.Idx) (i : S50000x128.Idx) (hcol : (i 1).val = (y 1).val)
    (h0 : ∀ k : Fin 256, x0 (ix2 (⟨(y 0).val, idx2_lt0 y⟩ : Fin 5000) k) = A (ix2 (⟨(i 0).val, idx2_lt0 i⟩ : Fin 50000) k))
    (h1 : ∀ (k : Fin 256) (q : Fin 128), x1 (ix2 k q) = B (ix2 k q)) :
    k0_pay1 (F := Ideal) x0 x1 y = matProd A B i := by
  have hy : y = ix2 (⟨(y 0).val, idx2_lt0 y⟩ : Fin 5000) (⟨(y 1).val, idx2_lt1 y⟩ : Fin 128) := eq_ix2 y
  rw [hy, body_apply]
  show _ = ∑ k : Fin 256, A (ix2 (⟨(i 0).val, idx2_lt0 i⟩ : Fin 50000) k) * B (ix2 k (⟨(i 1).val, idx2_lt1 i⟩ : Fin 128))
  refine Finset.sum_congr rfl fun k _ => ?_
  rw [h0 k, h1 k]
  refine congrArg (fun q' : Fin 128 => A (ix2 (⟨(i 0).val, idx2_lt0 i⟩ : Fin 50000) k) * B (ix2 k q')) (Fin.ext ?_)
  exact hcol.symm

/-- The printed index maps over the ten grid points: the features' and the output's blocks are block `t` of the rows,
    the weights' block is the whole matrix. -/
theorem index_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- What grid point `t` writes back is block `t` of the product of the two input arrays. -/
theorem flushed_eq (c : Dev nD) (t : Fin cfg0.N) :
    (dat0 V c).flushed 2 t
      = ((cfg0.win 2).blk t).view.read (Elt Ideal) (matProd (V c main_arg0 : Arr 50000 256) (V c main_v0 : Arr 256 128)) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x128) origin]
  obtain ⟨e0, e1, e2, e3, e4, e5⟩ := index_facts t
  funext j
  show k0_pay1 (F := Ideal) (iblk0 V c 0 t) (iblk0 V c 1 t) j
      = matProd (V c main_arg0 : Arr 50000 256) (V c main_v0 : Arr 256 128) (((cfg0.win 2).blk t).view.emb j)
  refine body_point (iblk0 V c 0 t) (iblk0 V c 1 t) (V c main_arg0 : Arr 50000 256) (V c main_v0 : Arr 256 128) j
    (((cfg0.win 2).blk t).view.emb j) ?_ ?_ ?_
  · show win0_2.index t (1 : Fin 2) * 128 + 1 * (j 1).val = (j 1).val
    omega
  · intro k
    show (V c main_arg0 : Arr 50000 256) (((cfg0.win 0).blk t).view.emb (ix2 (⟨(j 0).val, idx2_lt0 j⟩ : Fin 5000) k))
        = (V c main_arg0 : Arr 50000 256) (ix2 (⟨((((cfg0.win 2).blk t).view.emb j) 0).val, idx2_lt0 _⟩ : Fin 50000) k)
    refine congrArg (V c main_arg0 : Arr 50000 256) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  · intro k q
    show (V c main_v0 : Arr 256 128) (((cfg0.win 1).blk t).view.emb (ix2 k q)) = (V c main_v0 : Arr 256 128) (ix2 k q)
    refine congrArg (V c main_v0 : Arr 256 128) (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega

/-- An index of the output array is in grid point `t`'s block iff each coordinate is in the block's range. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v3).slice (win0_2.rect t)).set ↔ _
  rw [View.set_slice_whole, Rect.mem_set_unit]
  exact Iff.rfl

/-- The ten blocks tile the rows: row `r` is in the block of grid point `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := index_facts t
  have e5' : win0_2.index t (0 : Fin 2) = (i 0).val / 5000 := e5
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is the product of the features with the weights. -/
theorem final (c : Dev nD) :
    (dat0 V c).arrAt 2 cfg0.N = matProd (V c main_arg0 : Arr 50000 256) (V c main_v0 : Arr 256 128) :=
  (dat0 V c).arrAt_eq_of_cover 2 _ (fun t _ => flushed_eq V c t) cover

end Cert.KernelIdeal.GcnRegion0

end
-- ==== Proof.Region1.lean ====
/-
  The second region: bias, rectifier and the second matrix product, fused, ten blocks of 5000 rows.

  Grid point `t` loads rows `5000·t … 5000·t + 4999` of the `[50000, 128]` propagated array, the whole `[1, 128]` summed
  bias row and the whole `[128, 64]` output weights; adds the bias row to every row of the block, takes the maximum with
  zero, rounds to bf16 (the identity at the ideal values), multiplies by the weights into a zero accumulator, and writes the
  `[5000, 64]` product back to the same rows of the output. Entry `(r, q)` of the output is the sum over the hidden
  column `d` of `max (A (r, d) + b (0, d)) 0` times weight `(d, q)`; the ten blocks tile the rows. After the region the
  output array is `matProd (relu (addRow A b)) W` of the three input arrays as the region found them.
-/
import proofs.«157736_j88742614270553_1_alg».proof.Proof.Gen.KernelIdeal.Frame
import proofs.«157736_j88742614270553_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GcnRegion1

open Cert.KernelIdeal Cert.KernelIdeal.Gen Cert.KernelIdeal.Facts₀ Cert.KernelIdeal.Facts
open Idealize.ShloMosaic Idealize.ShloMosaic.TcCoe Idealize.SL.Sem Idealize.ShloMosaic.ValueIdx Cert.Gcn
open Idealize.ShloMosaic.Pipeline (Dat)

-- the TensorCore's buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The body's stored value at entry `(p, q)` of the block: the sum over the hidden column `d` of the rectified, biased
    entry `(p, d)` times the weights' `(d, q)`. -/
theorem body_apply (x0 : Vec Ideal S5000x128 .f32) (x1 : Vec Ideal S1x128 .f32) (x2 : Vec Ideal S128x64 .f32)
    (p : Fin 5000) (q : Fin 64) :
    k1_pay1 (F := Ideal) x0 x1 x2 (ix2 p q)
      = ∑ d : Fin 128, max (x0 (ix2 p d) + x1 (ix2 (0 : Fin 1) d)) 0 * x2 (ix2 d q) := by
  unfold k1_pay1
  refine (Ideal.matmul_constant_zero_apply dot_S5000x128_S128x64_S5000x64_1_0_0_1_n_n none _ _ (ix2 p q)).trans ?_
  refine (Cert.PlainDot.sum_contr dot_S5000x128_S128x64_S5000x64_1_0_0_1_n_n ⟨rfl, rfl, rfl, rfl, rfl, rfl⟩ _ _ p q).trans ?_
  refine Finset.sum_congr rfl fun d _ => ?_
  rw [truncf_apply, truncf_apply, maximumf_apply, addf_apply, shapeCast_self, shapeCast_self, broadcast_apply]
  have hb : broadcastTo S5000x128 x1 Facts₀.broadcasts_S1x128_S5000x128 (ix2 p d) = x1 (ix2 (0 : Fin 1) d) :=
    broadcastTo_apply x1 Facts₀.broadcasts_S1x128_S5000x128 (ix2 p d) (ix2 (0 : Fin 1) d) (fun a => match a with
      | ⟨0, _⟩ => by show 0 = if (1 : Nat) = 1 then 0 else p.val; rw [if_pos rfl]
      | ⟨1, _⟩ => by show d.val = if (128 : Nat) = 1 then 0 else d.val; rw [if_neg (by decide)])
  rw [hb]
  show max (x0 (ix2 p d) + x1 (ix2 (0 : Fin 1) d)) (Ideal.ofBits .f32 0x00000000#32) * x2 (ix2 d q) = _
  rw [Ideal.ofBits_zero_f32]

/-- The same, for a block whose row `y 0` is row `i 0` of an array `A`, whose bias row is `b` and whose weights are `B`:
    the stored value at `y` is `matProd (relu (addRow A b)) B` at the array index `i` that `y` sits at. -/
theorem body_point (x0 : Vec Ideal S5000x128 .f32) (x1 : Vec Ideal S1x128 .f32) (x2 : Vec Ideal S128x64 .f32)
    (A : Arr 50000 128) (b : Arr 1 128) (B : Arr 128 64)
    (y : S5000x64.Idx) (i : S50000x64.Idx) (hcol : (i 1).val = (y 1).val)
    (h0 : ∀ d : Fin 128, x0 (ix2 (⟨(y 0).val, idx2_lt0 y⟩ : Fin 5000) d) = A (ix2 (⟨(i 0).val, idx2_lt0 i⟩ : Fin 50000) d))
    (h1 : ∀ d : Fin 128, x1 (ix2 (0 : Fin 1) d) = b (ix2 (0 : Fin 1) d))
    (h2 : ∀ (d : Fin 128) (q : Fin 64), x2 (ix2 d q) = B (ix2 d q)) :
    k1_pay1 (F := Ideal) x0 x1 x2 y = matProd (relu (addRow A b)) B i := by
  have hy : y = ix2 (⟨(y 0).val, idx2_lt0 y⟩ : Fin 5000) (⟨(y 1).val, idx2_lt1 y⟩ : Fin 64) := eq_ix2 y
  rw [hy, body_apply]
  show _ = ∑ d : Fin 128, max (A (ix2 (⟨(i 0).val, idx2_lt0 i⟩ : Fin 50000) d) + b (ix2 (0 : Fin 1) d)) 0
      * B (ix2 d (⟨(i 1).val, idx2_lt1 i⟩ : Fin 64))
  refine Finset.sum_congr rfl fun d _ => ?_
  rw [h0 d, h1 d, h2 d]
  refine congrArg (fun q' : Fin 64 => max (A (ix2 (⟨(i 0).val, idx2_lt0 i⟩ : Fin 50000) d) + b (ix2 (0 : Fin 1) d)) 0 * B (ix2 d q')) (Fin.ext ?_)
  exact hcol.symm

/-- The printed index maps over the ten grid points: the propagated array's and the output's blocks are block `t` of the
    rows, the bias row's and the weights' blocks are the whole arrays. -/
theorem index_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val :=
  (by decide +kernel : ∀ t : Fin grid1.N, _)

/-- What grid point `t` writes back is block `t` of the rectified, biased array times the weights. -/
theorem flushed_eq (c : Dev nD) (t : Fin cfg1.N) :
    (dat1 V c).flushed 3 t
      = ((cfg1.win 3).blk t).view.read (Elt Ideal)
          (matProd (relu (addRow (V c main_v16 : Arr 50000 128) (V c main_v2 : Arr 1 128))) (V c main_arg6 : Arr 128 64)) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin, View.ld_unit_zero (S := S128x64) origin]
  obtain ⟨e0, e1, e2, e3, e4, e5, e6, e7⟩ := index_facts t
  funext j
  show k1_pay1 (F := Ideal) (iblk1 V c 0 t) (iblk1 V c 1 t) (iblk1 V c 2 t) j
      = matProd (relu (addRow (V c main_v16 : Arr 50000 128) (V c main_v2 : Arr 1 128))) (V c main_arg6 : Arr 128 64)
          (((cfg1.win 3).blk t).view.emb j)
  refine body_point (iblk1 V c 0 t) (iblk1 V c 1 t) (iblk1 V c 2 t) (V c main_v16 : Arr 50000 128) (V c main_v2 : Arr 1 128)
    (V c main_arg6 : Arr 128 64) j (((cfg1.win 3).blk t).view.emb j) ?_ ?_ ?_ ?_
  · show win1_3.index t (1 : Fin 2) * 64 + 1 * (j 1).val = (j 1).val
    omega
  · intro d
    show (V c main_v16 : Arr 50000 128) (((cfg1.win 0).blk t).view.emb (ix2 (⟨(j 0).val, idx2_lt0 j⟩ : Fin 5000) d))
        = (V c main_v16 : Arr 50000 128) (ix2 (⟨((((cfg1.win 3).blk t).view.emb j) 0).val, idx2_lt0 _⟩ : Fin 50000) d)
    refine congrArg (V c main_v16 : Arr 50000 128) (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * d.val = d.val; omega
  · intro d
    show (V c main_v2 : Arr 1 128) (((cfg1.win 1).blk t).view.emb (ix2 (0 : Fin 1) d)) = (V c main_v2 : Arr 1 128) (ix2 (0 : Fin 1) d)
    refine congrArg (V c main_v2 : Arr 1 128) (funext fun a => Fin.ext ?_)
    match a with
    | ⟨0, _⟩ => show win1_1.index t (0 : Fin 2) * 1 + 1 * 0 = 0; omega
    | ⟨1, _⟩ => show win1_1.index t (1 : Fin 2) * 128 + 1 * d.val = d.val; omega
  · intro d q
    show (V c main_arg6 : Arr 128 64) (((cfg1.win 2).blk t).view.emb (ix2 d q)) = (V c main_arg6 : Arr 128 64) (ix2 d q)
    refine congrArg (V c main_arg6 : Arr 128 64) (funext fun a => Fin.ext ?_)
    match a with
    | ⟨0, _⟩ => show win1_2.index t (0 : Fin 2) * 128 + 1 * d.val = d.val; omega
    | ⟨1, _⟩ => show win1_2.index t (1 : Fin 2) * 64 + 1 * q.val = q.val; omega

/-- An index of the output array is in grid point `t`'s block iff each coordinate is in the block's range. -/
theorem mem_blk (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v17).slice (win1_3.rect t)).set ↔ _
  rw [View.set_slice_whole, Rect.mem_set_unit]
  exact Iff.rfl

/-- The ten blocks tile the rows: row `r` is in the block of grid point `r / 5000`. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨e0, e1, e2, e3, e4, e5, e6, e7⟩ := index_facts t
  have e7' : win1_3.index t (0 : Fin 2) = (i 0).val / 5000 := e7
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

/-- After the region the output array is the rectified, biased propagated array times the output weights. -/
theorem final (c : Dev nD) :
    (dat1 V c).arrAt 3 cfg1.N
      = matProd (relu (addRow (V c main_v16 : Arr 50000 128) (V c main_v2 : Arr 1 128))) (V c main_arg6 : Arr 128 64) :=
  (dat1 V c).arrAt_eq_of_cover 3 _ (fun t _ => flushed_eq V c t) cover

end Cert.KernelIdeal.GcnRegion1

end
-- ==== Proof.Region2.lean ====
/-
  The third region: a bias row added to an array, ten blocks of 5000 rows.

  Grid point `t` loads rows `5000·t … 5000·t + 4999` of the `[50000, 64]` input and the whole `[1, 64]` bias row, and
  writes back, to the same rows of the output, the block plus the bias row spread over its rows. An entry `(r, q)` of
  the output therefore depends on entry `(r, q)` of the input and entry `(0, q)` of the bias only, and the ten blocks
  tile the rows: after the region the output array is `addRow` of the two input arrays as the region found them.
-/
import proofs.«157736_j88742614270553_1_alg».proof.Proof.Gen.KernelIdeal.Frame
import proofs.«157736_j88742614270553_1_alg».proof.Proof.Spec
import Idealize.ShloMosaic.Lib.Pipeline.Value
import Idealize.ShloMosaic.Lib.ValueIdx

set_option maxRecDepth 16384

noncomputable section

open scoped BigOperators

namespace Cert.KernelIdeal.GcnRegion2

open Cert.KernelIdeal Cert.KernelIdeal.Gen Cert.KernelIdeal.Facts₀ Cert.KernelIdeal.Facts
open Idealize.ShloMosaic Idealize.ShloMosaic.TcCoe Idealize.SL.Sem Idealize.ShloMosaic.ValueIdx Cert.Gcn
open Idealize.ShloMosaic.Pipeline (Dat)

-- the TensorCore's buffer contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The body's stored value at entry `(p, q)` of the block: the input block's entry plus the bias row's entry `q`. -/
theorem body_apply (x0 : Vec Ideal S5000x64 .f32) (x1 : Vec Ideal S1x64 .f32) (p : Fin 5000) (q : Fin 64) :
    k2_pay1 (F := Ideal) x0 x1 (ix2 p q) = x0 (ix2 p q) + x1 (ix2 (0 : Fin 1) q) := by
  unfold k2_pay1
  rw [addf_apply, shapeCast_self, shapeCast_self]
  refine congrArg (x0 (ix2 p q) + ·) ?_
  exact broadcastTo_apply x1 Facts₀.broadcasts_S1x64_S5000x64 (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The same, for a block whose entries are known as entries of two arrays `A`, `b`: the stored value at `y` is
    `addRow A b` at the array index `i` that `y` sits at. -/
theorem body_point (x0 : Vec Ideal S5000x64 .f32) (x1 : Vec Ideal S1x64 .f32) (A : Arr 50000 64) (b : Arr 1 64)
    (y : S5000x64.Idx) (i : S50000x64.Idx) (hcol : (i 1).val = (y 1).val)
    (h0 : x0 y = A i) (h1 : ∀ q : Fin 64, x1 (ix2 (0 : Fin 1) q) = b (ix2 (0 : Fin 1) q)) :
    k2_pay1 (F := Ideal) x0 x1 y = addRow A b i := by
  obtain ⟨p, q, rfl⟩ : ∃ (p : Fin 5000) (q : Fin 64), y = ix2 p q := ⟨y 0, y 1, eq_ix2 y⟩
  rw [body_apply, h0, h1]
  show A i + b (ix2 (0 : Fin 1) q) = A i + b (ix2 (0 : Fin 1) (⟨(i 1).val, idx2_lt1 i⟩ : Fin 64))
  refine congrArg (fun q' : Fin 64 => A i + b (ix2 (0 : Fin 1) q')) (Fin.ext ?_)
  exact hcol.symm

/-- The printed index maps over the ten grid points: the input's and the output's blocks are block `t` of the rows,
    the bias row's block is the whole row. -/
theorem index_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

/-- What grid point `t` writes back is block `t` of `addRow` of the two input arrays. -/
theorem flushed_eq (c : Dev nD) (t : Fin cfg2.N) :
    (dat2 V c).flushed 2 t
      = ((cfg2.win 2).blk t).view.read (Elt Ideal) (addRow (V c main_v30 : Arr 50000 64) (V c main_v31 : Arr 1 64)) := by
  show (cfg2.win 2).cut (grid2.coords t) ((dat2 V c).after 2 t) = _
  rw [after2_2]
  unfold out2_2
  rw [View.canon_unit_zero origin]
  simp only [View.ld_unit_zero (S := S5000x64) origin, View.ld_unit_zero (S := S1x64) origin]
  obtain ⟨e0, e1, e2, e3, e4, e5⟩ := index_facts t
  funext j
  show k2_pay1 (F := Ideal) (iblk2 V c 0 t) (iblk2 V c 1 t) j
      = addRow (V c main_v30 : Arr 50000 64) (V c main_v31 : Arr 1 64) (((cfg2.win 2).blk t).view.emb j)
  refine body_point (iblk2 V c 0 t) (iblk2 V c 1 t) (V c main_v30 : Arr 50000 64) (V c main_v31 : Arr 1 64) j
    (((cfg2.win 2).blk t).view.emb j) ?_ ?_ ?_
  · show win2_2.index t (1 : Fin 2) * 64 + 1 * (j 1).val = (j 1).val
    omega
  · show (V c main_v30 : Arr 50000 64) (((cfg2.win 0).blk t).view.emb j) = (V c main_v30 : Arr 50000 64) (((cfg2.win 2).blk t).view.emb j)
    refine congrArg (V c main_v30 : Arr 50000 64) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  · intro q
    show (V c main_v31 : Arr 1 64) (((cfg2.win 1).blk t).view.emb (ix2 (0 : Fin 1) q)) = (V c main_v31 : Arr 1 64) (ix2 (0 : Fin 1) q)
    refine congrArg (V c main_v31 : Arr 1 64) (funext fun a => Fin.ext ?_)
    match a with
    | ⟨0, _⟩ => show win2_1.index t (0 : Fin 2) * 1 + 1 * 0 = 0; omega
    | ⟨1, _⟩ => show win2_1.index t (1 : Fin 2) * 64 + 1 * q.val = q.val; omega

/-- An index of the output array is in grid point `t`'s block iff each coordinate is in the block's range. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v32).slice (win2_2.rect t)).set ↔ _
  rw [View.set_slice_whole, Rect.mem_set_unit]
  exact Iff.rfl

/-- The ten blocks tile the rows: row `r` is in the block of grid point `r / 5000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨e0, e1, e2, e3, e4, e5⟩ := index_facts t
  have e5' : win2_2.index t (0 : Fin 2) = (i 0).val / 5000 := e5
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the output array is the input array with the bias row added to every row. -/
theorem final (c : Dev nD) :
    (dat2 V c).arrAt 2 cfg2.N = addRow (V c main_v30 : Arr 50000 64) (V c main_v31 : Arr 1 64) :=
  (dat2 V c).arrAt_eq_of_cover 2 _ (fun t _ => flushed_eq V c t) cover

end Cert.KernelIdeal.GcnRegion2

end
-- ==== Proof.KernelValue.lean ====
/-
  The idealized kernel's result array as one function of its argument arrays.

  The contents of the kernel's buffers are followed through the program: the two host sums over the seven branches
  (of the weights, of the biases); the first region, a matrix product; a host propagation step along the edges; the
  second region, bias / rectifier / matrix product; a second host propagation step; the third region, a bias add. Each
  host stretch is its operations applied to the contents before it, each region is its closed form (`GcnRegion0`,
  `GcnRegion1`, `GcnRegion2`) of the contents at its entry, and no segment writes an argument. Composed, the result
  array is `kernelOut` of the eight arguments:

      addRow (hop64 (matProd (relu (addRow (hop128 (matProd x (∑_j W_j))) (∑_j b_j))) W8)) b8.
-/
import proofs.«157736_j88742614270553_1_alg».proof.Proof.KernelRun
import proofs.«157736_j88742614270553_1_alg».proof.Proof.Region0
import proofs.«157736_j88742614270553_1_alg».proof.Proof.Region1
import proofs.«157736_j88742614270553_1_alg».proof.Proof.Region2
import proofs.«157736_j88742614270553_1_alg».proof.Proof.Spec
import Idealize.ShloMosaic.Lib.StableHlo.Run

set_option maxRecDepth 16384

noncomputable section

open scoped BigOperators

namespace Cert.KernelIdeal.GcnValue

open Cert.KernelIdeal Cert.KernelIdeal.Gen Cert.KernelIdeal.Facts₀ Cert.KernelIdeal.Facts
open Idealize.ShloMosaic Idealize.ShloMosaic.TcCoe Idealize.SL.Sem Idealize.ShloMosaic.ValueIdx Idealize.ShloMosaic.StableHlo
open Cert.Gcn Cert.Lib.Propagate Cert.Lib.RowOps

/-! ## The host operations, as functions of the argument arrays -/

/-- The edges' source rows: a negative index counts from the end (`50000` is added to it), then one column is added. -/
def srcRows (a1 : IVec S800000 32) : IVec S800000x1 32 :=
  broadcastInDim S800000x1 ![0] Facts₀.bcast_S800000_S800000x1_0
    (select (cmpi .slt a1 (broadcastInDim S800000 ![] Facts₀.bcast_S_S800000 (constantI S_ 32 0#32)))
      (addi a1 (broadcastInDim S800000 ![] Facts₀.bcast_S_S800000 (constantI S_ 32 50000#32))) a1)

/-- The edges' target rows, one column added. -/
def dstRows (a2 : IVec S800000 32) : IVec S800000x1 32 :=
  broadcastInDim S800000x1 ![0] Facts₀.bcast_S800000_S800000x1_0 a2

/-- The zero array a 128-column propagation accumulates into. -/
def zeros128 : FVec Ideal S50000x128 .f32 :=
  broadcastInDim S50000x128 ![] Facts₀.bcast_S_S50000x128 (constant (F := Ideal) S_ .f32 0x00000000#32)

/-- The zero array a 64-column propagation accumulates into. -/
def zeros64 : FVec Ideal S50000x64 .f32 :=
  broadcastInDim S50000x64 ![] Facts₀.bcast_S_S50000x64 (constant (F := Ideal) S_ .f32 0x00000000#32)

/-- The edge weights spread over 128 columns. -/
def edgeW128 (a3 : FVec Ideal S800000 .f32) : FVec Ideal S800000x128 .f32 :=
  broadcastInDim S800000x128 ![0, 1] Facts₀.bcast_S800000x1_S800000x128_0_1
    (broadcastInDim S800000x1 ![0] Facts₀.bcast_S800000_S800000x1_0 a3)

/-- The edge weights spread over 64 columns. -/
def edgeW64 (a3 : FVec Ideal S800000 .f32) : FVec Ideal S800000x64 .f32 :=
  broadcastInDim S800000x64 ![0, 1] Facts₀.bcast_S800000x1_S800000x64_0_1
    (broadcastInDim S800000x1 ![0] Facts₀.bcast_S800000_S800000x1_0 a3)

/-- The seven branches' weights added up, from zero. -/
def wSum (a4 : FVec Ideal S7x256x128 .f32) : FVec Ideal S256x128 .f32 :=
  Host.reduceAdd a4 (constant (F := Ideal) S_ .f32 0x00000000#32) Facts₀.reducesTo_S7x256x128_S256x128_d0 Facts₀.h_S_

/-- The seven branches' biases added up, from zero, as one row. -/
def bSum (a5 : FVec Ideal S7x128 .f32) : FVec Ideal S1x128 .f32 :=
  shapeCast S1x128 (Host.reduceAdd a5 (constant (F := Ideal) S_ .f32 0x00000000#32) Facts₀.reducesTo_S7x128_S128_d0 Facts₀.h_S_)
    Facts₀.shapeCasts_S128_S1x128

/-- The output bias as one row. -/
def outBias (a7 : FVec Ideal S64 .f32) : FVec Ideal S1x64 .f32 := shapeCast S1x64 a7 Facts₀.shapeCasts_S64_S1x64

/-- One propagation step over 128 columns along the edges `(a1, a2)` with weights `a3`. -/
def hop128 (a1 a2 : IVec S800000 32) (a3 : FVec Ideal S800000 .f32) (h : Arr 50000 128) : Arr 50000 128 :=
  hop Facts₀.gather_S50000x128_S800000x1_S800000x128_1_0_n_n_0_1_1128_wf Facts₀.scatter_S50000x128_S800000x1_S800000x128_1_0_0_1_wf (srcRows a1) (dstRows a2) zeros128 (edgeW128 a3) h

/-- One propagation step over 64 columns along the same edges. -/
def hop64 (a1 a2 : IVec S800000 32) (a3 : FVec Ideal S800000 .f32) (h : Arr 50000 64) : Arr 50000 64 :=
  hop Facts₀.gather_S50000x64_S800000x1_S800000x64_1_0_n_n_0_1_164_wf Facts₀.scatter_S50000x64_S800000x1_S800000x64_1_0_0_1_wf (srcRows a1) (dstRows a2) zeros64 (edgeW64 a3) h

/-- The kernel's result as a function of its eight arguments. -/
def kernelOut (a0 : FVec Ideal S50000x256 .f32) (a1 a2 : IVec S800000 32) (a3 : FVec Ideal S800000 .f32) (a4 : FVec Ideal S7x256x128 .f32) (a5 : FVec Ideal S7x128 .f32)
    (a6 : FVec Ideal S128x64 .f32) (a7 : FVec Ideal S64 .f32) : Arr 50000 64 :=
  addRow (hop64 a1 a2 a3 (matProd (relu (addRow (hop128 a1 a2 a3 (matProd a0 (wSum a4))) (bSum a5))) a6)) (outBias a7)

/-! ## The arguments at each boundary: no host operation and no region writes one -/

variable (m : (ℓ : Loc nD τ sig) → Buf (Elt Ideal) ℓ) (ρ : Dev nD → PrngReg)

theorem W1_arg0 (c : Dev nD) : W1 m ρ c (Proc.devRef .tc main_arg0) = m ((c : Thread nD τ).loc main_arg0) := by
  show StableHlo.after hostOps0 (W0 m ρ c) (Proc.devRef .tc main_arg0) = _
  after_results
  all_goals rfl

theorem W1_arg1 (c : Dev nD) : W1 m ρ c (Proc.devRef .tc main_arg1) = m ((c : Thread nD τ).loc main_arg1) := by
  show StableHlo.after hostOps0 (W0 m ρ c) (Proc.devRef .tc main_arg1) = _
  after_results
  all_goals rfl

theorem W1_arg2 (c : Dev nD) : W1 m ρ c (Proc.devRef .tc main_arg2) = m ((c : Thread nD τ).loc main_arg2) := by
  show StableHlo.after hostOps0 (W0 m ρ c) (Proc.devRef .tc main_arg2) = _
  after_results
  all_goals rfl

theorem W1_arg3 (c : Dev nD) : W1 m ρ c (Proc.devRef .tc main_arg3) = m ((c : Thread nD τ).loc main_arg3) := by
  show StableHlo.after hostOps0 (W0 m ρ c) (Proc.devRef .tc main_arg3) = _
  after_results
  all_goals rfl

theorem W1_arg4 (c : Dev nD) : W1 m ρ c (Proc.devRef .tc main_arg4) = m ((c : Thread nD τ).loc main_arg4) := by
  show StableHlo.after hostOps0 (W0 m ρ c) (Proc.devRef .tc main_arg4) = _
  after_results
  all_goals rfl

theorem W1_arg5 (c : Dev nD) : W1 m ρ c (Proc.devRef .tc main_arg5) = m ((c : Thread nD τ).loc main_arg5) := by
  show StableHlo.after hostOps0 (W0 m ρ c) (Proc.devRef .tc main_arg5) = _
  after_results
  all_goals rfl

theorem W1_arg6 (c : Dev nD) : W1 m ρ c (Proc.devRef .tc main_arg6) = m ((c : Thread nD τ).loc main_arg6) := by
  show StableHlo.after hostOps0 (W0 m ρ c) (Proc.devRef .tc main_arg6) = _
  after_results
  all_goals rfl

theorem W1_arg7 (c : Dev nD) : W1 m ρ c (Proc.devRef .tc main_arg7) = m ((c : Thread nD τ).loc main_arg7) := by
  show StableHlo.after hostOps0 (W0 m ρ c) (Proc.devRef .tc main_arg7) = _
  after_results
  all_goals rfl

theorem W2_arg1 (c : Dev nD) : W2 m ρ c (Proc.devRef .tc main_arg1) = m ((c : Thread nD τ).loc main_arg1) :=
  (W2_of_ne m ρ c main_arg1 (by decide)).trans (W1_arg1 m ρ c)

theorem W3_arg1 (c : Dev nD) : W3 m ρ c (Proc.devRef .tc main_arg1) = m ((c : Thread nD τ).loc main_arg1) := by
  show StableHlo.after hostOps1 (W2 m ρ c) (Proc.devRef .tc main_arg1) = _
  after_results
  exact W2_arg1 m ρ c

theorem W2_arg2 (c : Dev nD) : W2 m ρ c (Proc.devRef .tc main_arg2) = m ((c : Thread nD τ).loc main_arg2) :=
  (W2_of_ne m ρ c main_arg2 (by decide)).trans (W1_arg2 m ρ c)

theorem W3_arg2 (c : Dev nD) : W3 m ρ c (Proc.devRef .tc main_arg2) = m ((c : Thread nD τ).loc main_arg2) := by
  show StableHlo.after hostOps1 (W2 m ρ c) (Proc.devRef .tc main_arg2) = _
  after_results
  exact W2_arg2 m ρ c

theorem W2_arg3 (c : Dev nD) : W2 m ρ c (Proc.devRef .tc main_arg3) = m ((c : Thread nD τ).loc main_arg3) :=
  (W2_of_ne m ρ c main_arg3 (by decide)).trans (W1_arg3 m ρ c)

theorem W3_arg3 (c : Dev nD) : W3 m ρ c (Proc.devRef .tc main_arg3) = m ((c : Thread nD τ).loc main_arg3) := by
  show StableHlo.after hostOps1 (W2 m ρ c) (Proc.devRef .tc main_arg3) = _
  after_results
  exact W2_arg3 m ρ c

theorem W2_arg6 (c : Dev nD) : W2 m ρ c (Proc.devRef .tc main_arg6) = m ((c : Thread nD τ).loc main_arg6) :=
  (W2_of_ne m ρ c main_arg6 (by decide)).trans (W1_arg6 m ρ c)

theorem W3_arg6 (c : Dev nD) : W3 m ρ c (Proc.devRef .tc main_arg6) = m ((c : Thread nD τ).loc main_arg6) := by
  show StableHlo.after hostOps1 (W2 m ρ c) (Proc.devRef .tc main_arg6) = _
  after_results
  exact W2_arg6 m ρ c

theorem W2_arg7 (c : Dev nD) : W2 m ρ c (Proc.devRef .tc main_arg7) = m ((c : Thread nD τ).loc main_arg7) :=
  (W2_of_ne m ρ c main_arg7 (by decide)).trans (W1_arg7 m ρ c)

theorem W3_arg7 (c : Dev nD) : W3 m ρ c (Proc.devRef .tc main_arg7) = m ((c : Thread nD τ).loc main_arg7) := by
  show StableHlo.after hostOps1 (W2 m ρ c) (Proc.devRef .tc main_arg7) = _
  after_results
  exact W2_arg7 m ρ c

theorem W4_arg1 (c : Dev nD) : W4 m ρ c (Proc.devRef .tc main_arg1) = m ((c : Thread nD τ).loc main_arg1) :=
  (W4_of_ne m ρ c main_arg1 (by decide)).trans (W3_arg1 m ρ c)

theorem W4_arg2 (c : Dev nD) : W4 m ρ c (Proc.devRef .tc main_arg2) = m ((c : Thread nD τ).loc main_arg2) :=
  (W4_of_ne m ρ c main_arg2 (by decide)).trans (W3_arg2 m ρ c)

theorem W4_arg3 (c : Dev nD) : W4 m ρ c (Proc.devRef .tc main_arg3) = m ((c : Thread nD τ).loc main_arg3) :=
  (W4_of_ne m ρ c main_arg3 (by decide)).trans (W3_arg3 m ρ c)

theorem W4_arg7 (c : Dev nD) : W4 m ρ c (Proc.devRef .tc main_arg7) = m ((c : Thread nD τ).loc main_arg7) :=
  (W4_of_ne m ρ c main_arg7 (by decide)).trans (W3_arg7 m ρ c)

/-! ## The computed arrays at each boundary -/

/-- Before the first region: the summed weights. -/
theorem W1_wsum (c : Dev nD) : W1 m ρ c (Proc.devRef .tc main_v0) = wSum (m ((c : Thread nD τ).loc main_arg4)) := by
  show StableHlo.after hostOps0 (W0 m ρ c) (Proc.devRef .tc main_v0) = _
  after_results
  all_goals rfl

/-- Before the first region: the summed biases, as a row. -/
theorem W1_bsum (c : Dev nD) : W1 m ρ c (Proc.devRef .tc main_v2) = bSum (m ((c : Thread nD τ).loc main_arg5)) := by
  show StableHlo.after hostOps0 (W0 m ρ c) (Proc.devRef .tc main_v2) = _
  after_results
  all_goals rfl

/-- After the first region: the features times the summed weights. -/
theorem W2_prod (c : Dev nD) :
    W2 m ρ c (Proc.devRef .tc main_v3)
      = matProd (m ((c : Thread nD τ).loc main_arg0) : Arr 50000 256) (wSum (m ((c : Thread nD τ).loc main_arg4))) := by
  refine (W2_arr m ρ c 2).trans ((GcnRegion0.final (V1 m ρ) c).trans ?_)
  show matProd (W1 m ρ c (Proc.devRef .tc main_arg0) : Arr 50000 256) (W1 m ρ c (Proc.devRef .tc main_v0) : Arr 256 128) = _
  rw [W1_arg0, W1_wsum]

/-- The summed bias row is still there after the first region. -/
theorem W2_bsum (c : Dev nD) : W2 m ρ c (Proc.devRef .tc main_v2) = bSum (m ((c : Thread nD τ).loc main_arg5)) :=
  (W2_of_ne m ρ c main_v2 (by decide)).trans (W1_bsum m ρ c)

/-- Before the second region: the product propagated along the edges. -/
theorem W3_hop (c : Dev nD) :
    W3 m ρ c (Proc.devRef .tc main_v16)
      = hop128 (m ((c : Thread nD τ).loc main_arg1)) (m ((c : Thread nD τ).loc main_arg2)) (m ((c : Thread nD τ).loc main_arg3))
          (matProd (m ((c : Thread nD τ).loc main_arg0) : Arr 50000 256) (wSum (m ((c : Thread nD τ).loc main_arg4)))) := by
  show StableHlo.after hostOps1 (W2 m ρ c) (Proc.devRef .tc main_v16) = _
  after_results
  rw [W2_arg1, W2_arg2, W2_arg3, W2_prod]
  exact host_hop_eq Facts₀.gather_S50000x128_S800000x1_S800000x128_1_0_n_n_0_1_1128_wf Facts₀.scatter_S50000x128_S800000x1_S800000x128_1_0_0_1_wf
    gather_S50000x128_S800000x1_S800000x128_1_0_n_n_0_1_1128 scatter_S50000x128_S800000x1_S800000x128_1_0_0_1 rfl rfl _ _ _ _ _

/-- The summed bias row is still there before the second region. -/
theorem W3_bsum (c : Dev nD) : W3 m ρ c (Proc.devRef .tc main_v2) = bSum (m ((c : Thread nD τ).loc main_arg5)) := by
  show StableHlo.after hostOps1 (W2 m ρ c) (Proc.devRef .tc main_v2) = _
  after_results
  exact W2_bsum m ρ c

/-- After the second region: the rectified, biased propagated array times the output weights. -/
theorem W4_prod (c : Dev nD) :
    W4 m ρ c (Proc.devRef .tc main_v17)
      = matProd (relu (addRow
          (hop128 (m ((c : Thread nD τ).loc main_arg1)) (m ((c : Thread nD τ).loc main_arg2)) (m ((c : Thread nD τ).loc main_arg3))
            (matProd (m ((c : Thread nD τ).loc main_arg0) : Arr 50000 256) (wSum (m ((c : Thread nD τ).loc main_arg4)))))
          (bSum (m ((c : Thread nD τ).loc main_arg5)))))
        (m ((c : Thread nD τ).loc main_arg6) : Arr 128 64) := by
  refine (W4_arr m ρ c 3).trans ((GcnRegion1.final (V3 m ρ) c).trans ?_)
  show matProd (relu (addRow (W3 m ρ c (Proc.devRef .tc main_v16) : Arr 50000 128) (W3 m ρ c (Proc.devRef .tc main_v2) : Arr 1 128)))
      (W3 m ρ c (Proc.devRef .tc main_arg6) : Arr 128 64) = _
  rw [W3_hop, W3_bsum, W3_arg6]

set_option maxHeartbeats 4000000 in
/-- Before the third region: whatever the second region left, propagated along the edges. -/
theorem W5_hop_of (c : Dev nD) (P : Arr 50000 64) (hP : W4 m ρ c (Proc.devRef .tc main_v17) = P) :
    W5 m ρ c (Proc.devRef .tc main_v30)
      = hop64 (m ((c : Thread nD τ).loc main_arg1)) (m ((c : Thread nD τ).loc main_arg2)) (m ((c : Thread nD τ).loc main_arg3)) P := by
  show StableHlo.after hostOps2 (W4 m ρ c) (Proc.devRef .tc main_v30) = _
  after_results
  rw [W4_arg1, W4_arg2, W4_arg3, hP]
  exact host_hop_eq Facts₀.gather_S50000x64_S800000x1_S800000x64_1_0_n_n_0_1_164_wf Facts₀.scatter_S50000x64_S800000x1_S800000x64_1_0_0_1_wf
    gather_S50000x64_S800000x1_S800000x64_1_0_n_n_0_1_164 scatter_S50000x64_S800000x1_S800000x64_1_0_0_1 rfl rfl _ _ _ _ _

/-- Before the third region: the second product propagated along the edges. -/
theorem W5_hop (c : Dev nD) :
    W5 m ρ c (Proc.devRef .tc main_v30)
      = hop64 (m ((c : Thread nD τ).loc main_arg1)) (m ((c : Thread nD τ).loc main_arg2)) (m ((c : Thread nD τ).loc main_arg3))
          (matProd (relu (addRow
            (hop128 (m ((c : Thread nD τ).loc main_arg1)) (m ((c : Thread nD τ).loc main_arg2)) (m ((c : Thread nD τ).loc main_arg3))
              (matProd (m ((c : Thread nD τ).loc main_arg0) : Arr 50000 256) (wSum (m ((c : Thread nD τ).loc main_arg4)))))
            (bSum (m ((c : Thread nD τ).loc main_arg5)))))
          (m ((c : Thread nD τ).loc main_arg6) : Arr 128 64)) :=
  W5_hop_of m ρ c _ (W4_prod m ρ c)

/-- Before the third region: the output bias as a row. -/
theorem W5_bias (c : Dev nD) : W5 m ρ c (Proc.devRef .tc main_v31) = outBias (m ((c : Thread nD τ).loc main_arg7)) := by
  show StableHlo.after hostOps2 (W4 m ρ c) (Proc.devRef .tc main_v31) = _
  after_results
  rw [W4_arg7]
  rfl

/-- THE RESULT: after the third region the result array is `kernelOut` of the argument arrays. -/
theorem result_eq (c : Dev nD) :
    W6 m ρ c (Proc.devRef .tc main_v32)
      = kernelOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W6_arr m ρ c 2).trans ((GcnRegion2.final (V5 m ρ) c).trans ?_)
  show addRow (W5 m ρ c (Proc.devRef .tc main_v30) : Arr 50000 64) (W5 m ρ c (Proc.devRef .tc main_v31) : Arr 1 64) = _
  rw [W5_hop, W5_bias]
  rfl

end Cert.KernelIdeal.GcnValue

end
-- ==== Proof.Finite.lean ====
/-
  From the precondition to real entries.

  The precondition says, of each float argument `x`, `all (|x| < +inf)`, and it is the conjunction of the six answers.
  At the ideal values a float is an extended real and `|x| = max x (-x)`; `max x (-x) < ⊤` rules out both infinities, so
  the entry is a real number. The law that joins the kernel and the reference distributes products over sums, which on
  the extended reals needs exactly this. It is needed of the node features, the edge weights, the stacked branch weights
  and the stacked branch biases (the output weights and the output bias enter both programs in the same places).
-/
import proofs.«157736_j88742614270553_1_alg».proof.Pre_finite_inputs
import proofs.«157736_j88742614270553_1_alg».proof.Proof.Gen.Pre_finite_inputs
import proofs.«157736_j88742614270553_1_alg».proof.Proof.LibRealSum
import Idealize.ShloMosaic.Lib.ReduceAll
import Idealize.ShloMosaic.Lib.IdealHost
import Idealize.ShloMosaic.Lib.ValueIdx

noncomputable section

namespace Cert.Pre_finite_inputs.GcnFinite

open Cert.Pre_finite_inputs Idealize.ShloMosaic Idealize.ShloMosaic.ValueIdx Cert.Lib.RealSum

/-- A rank-0 shape has one index. -/
instance : Subsingleton S_.Idx := ⟨fun a b => funext fun d => d.elim0⟩

/-- The f32 word `0x7F800000` is `+inf`. -/
theorem inf_f32 : Ideal.ofBits .f32 0x7F800000#32 = ⊤ := by simp [Ideal.ofBits, Ideal.ieee]

/-- An extended real whose absolute value is below `+inf` is a real. -/
theorem isReal_of_abs_lt_top (x : EReal) (h : Ideal.cmp .olt (max x (-x)) ⊤ = 1#1) : IsReal x := by
  induction x using EReal.rec with
  | bot => exact absurd h (by simp [Ideal.cmp])
  | coe r => exact ⟨r, rfl⟩
  | top => exact absurd h (by simp [Ideal.cmp])

/-- `all (|x| < +inf)` answered 1: every entry of `x` is a real. -/
theorem all_real {s : Shape} {axes : List (Fin s.rank)} (x : FVec Ideal s .f32)
    (hb : S_.BroadcastsInDim s (![] : Fin 0 → Fin s.rank)) (hr : s.ReducesTo axes S_) (hS : 0 < S_.numel)
    (h : Host.reduce IntOp.andi (cmpf .olt (Host.absf x) (broadcastInDim s ![] hb (constant (F := Ideal) S_ .f32 0x7F800000#32)))
          (constantI S_ 1 1#1) hr hS ix0 = 1#1) (i : s.Idx) : IsReal (x i) := by
  have hi := Host.reduce_andi_all _ _ hr hS ix0 h i
  have e : broadcastInDim s ![] hb (constant (F := Ideal) S_ .f32 0x7F800000#32) i = ⊤ := by
    rw [broadcastInDim_scalar_apply]
    exact inf_f32
  rw [cmpf_apply, e] at hi
  exact isReal_of_abs_lt_top (x i) hi

/-- The precondition gives real entries to the node features, the edge weights, the branch weights and the branch biases. -/
theorem reals_of_pre (a0 : FVec Ideal S50000x256 .f32) (a1 a2 : IVec S800000 32) (a3 : FVec Ideal S800000 .f32)
    (a4 : FVec Ideal S7x256x128 .f32) (a5 : FVec Ideal S7x128 .f32) (a6 : FVec Ideal S128x64 .f32) (a7 : FVec Ideal S64 .f32)
    (h : fn (F := Ideal) a0 a1 a2 a3 a4 a5 a6 a7 = fun _ => 1#1) :
    (∀ i, IsReal (a0 i)) ∧ (∀ i, IsReal (a3 i)) ∧ (∀ i, IsReal (a4 i)) ∧ (∀ i, IsReal (a5 i)) := by
  have h0 := congrFun h ix0
  unfold fn fn_part1 at h0
  dsimp only at h0
  obtain ⟨h5, -⟩ := IntOp.andi_eq_one.1 h0
  obtain ⟨h4, -⟩ := IntOp.andi_eq_one.1 h5
  obtain ⟨h3, hb⟩ := IntOp.andi_eq_one.1 h4
  obtain ⟨h2, hW⟩ := IntOp.andi_eq_one.1 h3
  obtain ⟨hx, hw⟩ := IntOp.andi_eq_one.1 h2
  exact ⟨all_real a0 _ _ _ hx, all_real a3 _ _ _ hw, all_real a4 _ _ _ hW, all_real a5 _ _ _ hb⟩

end Cert.Pre_finite_inputs.GcnFinite

end
-- ==== Proof.KernelReads.lean ====
/-
  The kernel's host terms, read at an index.

  The two sums the kernel takes over the seven branches before its first region — of the stacked weights, entry by
  entry, and of the stacked biases — are, from a zero initial value, `0 + ∑ j, W (j, k, d)` and `0 + ∑ j, b (j, d)`; the
  arrays its propagation steps accumulate into are zero; the edge weights spread over the columns read the edge's weight;
  the output bias as a row reads the bias.
-/
import proofs.«157736_j88742614270553_1_alg».proof.Proof.KernelValue
import Idealize.ShloMosaic.Lib.IdealHost
import Idealize.ShloMosaic.Lib.Pipeline.Value
import Idealize.ShloMosaic.PureOps.Ideal.Laws

set_option maxRecDepth 16384

noncomputable section

open scoped BigOperators

namespace Cert.KernelIdeal.GcnValue

open Cert.KernelIdeal Cert.KernelIdeal.Gen Cert.KernelIdeal.Facts₀ Cert.KernelIdeal.Facts
open Idealize.ShloMosaic Idealize.ShloMosaic.ValueIdx Cert.Gcn Cert.Lib.Propagate Cert.Lib.RowOps

theorem zeros128_apply (i : S50000x128.Idx) : zeros128 i = 0 := zeros_apply Facts₀.bcast_S_S50000x128 i

theorem zeros64_apply (i : S50000x64.Idx) : zeros64 i = 0 := zeros_apply Facts₀.bcast_S_S50000x64 i

theorem edgeW128_apply (a3 : FVec Ideal S800000 .f32) (e : Fin 800000) (f : Fin 128) : edgeW128 a3 (ix2 e f) = a3 (ix1 e) :=
  rowBroadcast_apply (by decide) Facts₀.bcast_S800000_S800000x1_0 Facts₀.bcast_S800000x1_S800000x128_0_1 a3 e f

theorem edgeW64_apply (a3 : FVec Ideal S800000 .f32) (e : Fin 800000) (f : Fin 64) : edgeW64 a3 (ix2 e f) = a3 (ix1 e) :=
  rowBroadcast_apply (by decide) Facts₀.bcast_S800000_S800000x1_0 Facts₀.bcast_S800000x1_S800000x64_0_1 a3 e f

/-- The summed weights at `(k, d)`: from zero, the sum over the branches of the stacked weights at `(j, k, d)`. -/
theorem wSum_apply (a4 : FVec Ideal S7x256x128 .f32) (k : Fin 256) (d : Fin 128) :
    wSum a4 (ix2 k d) = (0 : EReal) + ∑ j : Fin 7, a4 (ix3 j k d) := by
  have hred : S7x256x128.Reduces [0] S256x128 := by decide
  unfold wSum
  rw [hostReduceAdd_apply, Ideal.hostReduceAdd_single Facts₀.reducesTo_S7x256x128_S256x128_d0 hred]
  show Ideal.ofBits .f32 0x00000000#32 + ∑ j : Fin 7, a4 (hred.lift (ix2 k d) j) = _
  rw [Ideal.ofBits_zero_f32]
  refine congrArg ((0 : EReal) + ·) (Finset.sum_congr rfl fun j _ => congrArg a4 (funext fun a => Fin.ext ?_))
  match a with
  | ⟨0, _⟩ => rfl
  | ⟨1, _⟩ => rfl
  | ⟨2, _⟩ => rfl

/-- The summed bias row at `(0, d)`: from zero, the sum over the branches of the stacked biases at `(j, d)`. -/
theorem bSum_apply (a5 : FVec Ideal S7x128 .f32) (d : Fin 128) :
    bSum a5 (ix2 (0 : Fin 1) d) = (0 : EReal) + ∑ j : Fin 7, a5 (ix2 j d) := by
  have hred : S7x128.Reduces [0] S128 := by decide
  unfold bSum
  rw [shapeCast_addUnit_apply ![128] _ Facts₀.shapeCasts_S128_S1x128 (ix2 (0 : Fin 1) d),
    show (fun a : Fin 1 => (ix2 (0 : Fin 1) d : (⟨2, ![1, 128]⟩ : Shape).Idx) a.succ) = ix1 d from
      funext fun a => by match a with | ⟨0, _⟩ => rfl]
  rw [hostReduceAdd_apply, Ideal.hostReduceAdd_single Facts₀.reducesTo_S7x128_S128_d0 hred]
  show Ideal.ofBits .f32 0x00000000#32 + ∑ j : Fin 7, a5 (hred.lift (ix1 d) j) = _
  rw [Ideal.ofBits_zero_f32]
  refine congrArg ((0 : EReal) + ·) (Finset.sum_congr rfl fun j _ => congrArg a5 (funext fun a => Fin.ext ?_))
  match a with
  | ⟨0, _⟩ => rfl
  | ⟨1, _⟩ => rfl

/-- The output bias row at `(0, q)` is the output bias at `q`. -/
theorem outBias_apply (a7 : FVec Ideal S64 .f32) (q : Fin 64) : outBias a7 (ix2 (0 : Fin 1) q) = a7 (ix1 q) := by
  unfold outBias
  rw [shapeCast_addUnit_apply ![64] _ Facts₀.shapeCasts_S64_S1x64 (ix2 (0 : Fin 1) q),
    show (fun a : Fin 1 => (ix2 (0 : Fin 1) q : (⟨2, ![1, 64]⟩ : Shape).Idx) a.succ) = ix1 q from
      funext fun a => by match a with | ⟨0, _⟩ => rfl]

end Cert.KernelIdeal.GcnValue

end
-- ==== Proof.RefValue.lean ====
/-
  The reference, read: seven graph-convolution branches added up, a rectifier, and an output convolution.

  Each branch `j` slices its `[256, 128]` weights and its `[128]` bias out of the stacked arguments, multiplies the
  node features by the weights, propagates the product along the edges (gather at the sources, scale by the edge weight,
  add up at the targets, from a zero array) and adds the bias to every row. The branches are added, in order, onto a zero
  array; the rectified sum is multiplied by the output weights, propagated once more along the same edges, and the output
  bias is added to every row.

  Here each branch is identified with `hop (matProd x W_j) + b_j` over ONE set of edge arrays (every branch recomputes
  the same source indices, target indices, zero array and edge weights from the same arguments), its weight slice and
  its bias are read at an index, and the pre-activation array is read at `(n, d)` as the seven branch values added in
  order onto zero. The output layer is identified with `hop (matProd (relu A) W8) + b8` of the pre-activation `A`.
-/
import proofs.«157736_j88742614270553_1_alg».proof.Proof.Gen.ReferenceIdeal.Read
import proofs.«157736_j88742614270553_1_alg».proof.Proof.Spec
import Idealize.ShloMosaic.Lib.Pipeline.Value
import Idealize.ShloMosaic.Lib.ValueIdx

set_option maxRecDepth 16384

noncomputable section

open scoped BigOperators

namespace Cert.ReferenceIdeal.GcnRef

open Cert.ReferenceIdeal Cert.ReferenceIdeal.Gen Cert.ReferenceIdeal.Read Cert.ReferenceIdeal.Facts₀ Cert.ReferenceIdeal.Facts
open Idealize.ShloMosaic Idealize.ShloMosaic.ValueIdx Cert.Gcn Cert.Lib.Propagate Cert.Lib.RowOps

variable (x0 : (⟨S50000x256, .f32⟩ : BufTy).Contents (Elt Ideal)) (x1 x2 : (⟨S800000, .i32⟩ : BufTy).Contents (Elt Ideal)) (x3 : (⟨S800000, .f32⟩ : BufTy).Contents (Elt Ideal)) (x4 : (⟨S7x256x128, .f32⟩ : BufTy).Contents (Elt Ideal)) (x5 : (⟨S7x128, .f32⟩ : BufTy).Contents (Elt Ideal)) (x6 : (⟨S128x64, .f32⟩ : BufTy).Contents (Elt Ideal)) (x7 : (⟨S64, .f32⟩ : BufTy).Contents (Elt Ideal))

/-- There is a node. -/
theorem nodes_pos : 0 < 50000 := by decide

/-! ## The edge arrays, read at an index -/

/-- The array a propagation step accumulates into is zero everywhere. -/
theorem zeros128_apply (i : S50000x128.Idx) : val_main_v16 (F := Ideal) i = 0 := by
  unfold val_main_v16 val_main_cst_1
  exact zeros_apply Facts₀.bcast_S_S50000x128 i

/-- The array the branches are added onto is zero everywhere. -/
theorem start128_apply (i : S50000x128.Idx) : val_main_v0 (F := Ideal) i = 0 := by
  unfold val_main_v0 val_main_cst
  exact zeros_apply Facts₀.bcast_S_S50000x128 i

/-- The rectifier's comparand is zero everywhere. -/
theorem reluZero_apply (i : S50000x128.Idx) : val_main_call0_v0 (F := Ideal) i = 0 := by
  unfold val_main_call0_v0 val_main_call0_cst
  exact zeros_apply Facts₀.bcast_S_S50000x128 i

/-- The array the output layer's propagation accumulates into is zero everywhere. -/
theorem zeros64_apply (i : S50000x64.Idx) : val_main_v167 (F := Ideal) i = 0 := by
  unfold val_main_v167 val_main_cst_22
  exact zeros_apply Facts₀.bcast_S_S50000x64 i

/-- The edge weights spread over 128 columns read the edge's weight. -/
theorem weights128_apply (e : Fin 800000) (f : Fin 128) : val_main_v14 (F := Ideal) x3 (ix2 e f) = x3 (ix1 e) := by
  unfold val_main_v14 val_main_v13
  exact rowBroadcast_apply (by decide) Facts₀.bcast_S800000_S800000x1_0 Facts₀.bcast_S800000x1_S800000x128_0_1 x3 e f

/-- The edge weights spread over 64 columns read the edge's weight. -/
theorem weights64_apply (e : Fin 800000) (f : Fin 64) : val_main_v165 (F := Ideal) x3 (ix2 e f) = x3 (ix1 e) := by
  unfold val_main_v165 val_main_v164
  exact rowBroadcast_apply (by decide) Facts₀.bcast_S800000_S800000x1_0 Facts₀.bcast_S800000x1_S800000x64_0_1 x3 e f

/-- The output bias spread over the rows reads the bias entry of the column. -/
theorem outBias_apply (n : Fin 50000) (q : Fin 64) : val_main_v171 (F := Ideal) x7 (ix2 n q) = x7 (ix1 q) := by
  rw [val_main_v171_apply, val_main_v170_apply]
  refine congrArg x7 (funext fun a => Fin.ext ?_)
  match a with
  | ⟨0, _⟩ => rfl

/-! ## The seven branches -/

/-- Branch 0's weights are slice 0 of the stacked weights. -/
theorem weight0_apply (k : Fin 256) (d : Fin 128) :
    val_main_v2 (F := Ideal) x4 (ix2 k d) = x4 (ix3 (0 : Fin 7) k d) := by
  rw [val_main_v2_apply, val_main_v1_apply]
  refine congrArg x4 (funext fun a => Fin.ext ?_)
  match a with
  | ⟨0, _⟩ => rfl
  | ⟨1, _⟩ => show (k.val * 128 + d.val) / 128 % 256 = k.val; omega
  | ⟨2, _⟩ => show (k.val * 128 + d.val) % 128 = d.val; omega

/-- Branch 0's bias, spread over the rows, reads entry `(0, d)` of the stacked biases. -/
theorem bias0_apply (n : Fin 50000) (d : Fin 128) :
    val_main_v20 (F := Ideal) x5 (ix2 n d) = x5 (ix2 (0 : Fin 7) d) := by
  rw [val_main_v20_apply, val_main_v19_apply, val_main_v4_apply, val_main_v3_apply]
  refine congrArg x5 (funext fun a => Fin.ext ?_)
  match a with
  | ⟨0, _⟩ => rfl
  | ⟨1, _⟩ => show d.val % 128 = d.val; omega

/-- Branch 0 is one propagation of the product of the features with its weights, plus its bias. -/
theorem branch0_eq (y : S50000x128.Idx) :
    val_main_v21 (F := Ideal) x0 x1 x2 x3 x4 x5 y
      = hop Facts₀.gather_S50000x128_S800000x1_S800000x128_1_0_n_n_0_1_1128_wf Facts₀.scatter_S50000x128_S800000x1_S800000x128_1_0_0_1_wf
          (val_main_v11 (F := Ideal) x1) (val_main_v17 (F := Ideal) x2) (val_main_v16 (F := Ideal)) (val_main_v14 (F := Ideal) x3)
          (matProd x0 (val_main_v2 (F := Ideal) x4)) y + val_main_v20 (F := Ideal) x5 y := by
  rw [val_main_v21_apply, Ideal.addf_def]
  refine congrArg (· + val_main_v20 (F := Ideal) x5 y) ?_
  unfold val_main_v18 val_main_v15 val_main_v12 val_main_v5
  rw [dotGeneral_eq_matProd _ ⟨rfl, rfl, rfl, rfl, rfl, rfl⟩,
    host_hop_eq Facts₀.gather_S50000x128_S800000x1_S800000x128_1_0_n_n_0_1_1128_wf Facts₀.scatter_S50000x128_S800000x1_S800000x128_1_0_0_1_wf
      gather_S50000x128_S800000x1_S800000x128_1_0_n_n_0_1_1128 scatter_S50000x128_S800000x1_S800000x128_1_0_0_1 rfl rfl]

/-- Branch 0 at node `n`, column `d`: from zero, the sum over the edges arriving at `n` of the source's features
    contracted with slice 0 of the weights, times the edge weight; plus entry `(0, d)` of the biases. -/
theorem branch0_apply (n : Fin 50000) (d : Fin 128) :
    val_main_v21 (F := Ideal) x0 x1 x2 x3 x4 x5 (ix2 n d)
      = ((0 : EReal) + ∑ e ∈ Finset.univ.filter (fun e : Fin 800000 => (val_main_v17 (F := Ideal) x2 (ix2 e 0)).toInt = (n.val : Int)),
            (∑ k : Fin 256, x0 (ix2 (clampRow nodes_pos (val_main_v11 (F := Ideal) x1) e) k) * x4 (ix3 (0 : Fin 7) k d)) * x3 (ix1 e))
        + x5 (ix2 (0 : Fin 7) d) := by
  rw [branch0_eq, hop_apply nodes_pos, zeros128_apply, bias0_apply]
  simp only [matProd_apply, weight0_apply, weights128_apply]

/-- Branch 1's weights are slice 1 of the stacked weights. -/
theorem weight1_apply (k : Fin 256) (d : Fin 128) :
    val_main_v24 (F := Ideal) x4 (ix2 k d) = x4 (ix3 (1 : Fin 7) k d) := by
  rw [val_main_v24_apply, val_main_v23_apply]
  refine congrArg x4 (funext fun a => Fin.ext ?_)
  match a with
  | ⟨0, _⟩ => rfl
  | ⟨1, _⟩ => show (k.val * 128 + d.val) / 128 % 256 = k.val; omega
  | ⟨2, _⟩ => show (k.val * 128 + d.val) % 128 = d.val; omega

/-- Branch 1's bias, spread over the rows, reads entry `(1, d)` of the stacked biases. -/
theorem bias1_apply (n : Fin 50000) (d : Fin 128) :
    val_main_v42 (F := Ideal) x5 (ix2 n d) = x5 (ix2 (1 : Fin 7) d) := by
  rw [val_main_v42_apply, val_main_v41_apply, val_main_v26_apply, val_main_v25_apply]
  refine congrArg x5 (funext fun a => Fin.ext ?_)
  match a with
  | ⟨0, _⟩ => rfl
  | ⟨1, _⟩ => show d.val % 128 = d.val; omega

/-- Branch 1 recomputes the same edge arrays as branch 0 from the same arguments. -/
theorem rows1_eq : val_main_v33 (F := Ideal) x1 = val_main_v11 (F := Ideal) x1 := rfl
theorem cols1_eq : val_main_v39 (F := Ideal) x2 = val_main_v17 (F := Ideal) x2 := rfl
theorem zeros1_eq : val_main_v38 (F := Ideal) = val_main_v16 (F := Ideal) := rfl
theorem weights1_eq : val_main_v36 (F := Ideal) x3 = val_main_v14 (F := Ideal) x3 := rfl

/-- Branch 1 is one propagation of the product of the features with its weights, plus its bias. -/
theorem branch1_eq (y : S50000x128.Idx) :
    val_main_v43 (F := Ideal) x0 x1 x2 x3 x4 x5 y
      = hop Facts₀.gather_S50000x128_S800000x1_S800000x128_1_0_n_n_0_1_1128_wf Facts₀.scatter_S50000x128_S800000x1_S800000x128_1_0_0_1_wf
          (val_main_v11 (F := Ideal) x1) (val_main_v17 (F := Ideal) x2) (val_main_v16 (F := Ideal)) (val_main_v14 (F := Ideal) x3)
          (matProd x0 (val_main_v24 (F := Ideal) x4)) y + val_main_v42 (F := Ideal) x5 y := by
  rw [val_main_v43_apply, Ideal.addf_def]
  refine congrArg (· + val_main_v42 (F := Ideal) x5 y) ?_
  unfold val_main_v40 val_main_v37 val_main_v34 val_main_v27
  rw [dotGeneral_eq_matProd _ ⟨rfl, rfl, rfl, rfl, rfl, rfl⟩,
    host_hop_eq Facts₀.gather_S50000x128_S800000x1_S800000x128_1_0_n_n_0_1_1128_wf Facts₀.scatter_S50000x128_S800000x1_S800000x128_1_0_0_1_wf
      gather_S50000x128_S800000x1_S800000x128_1_0_n_n_0_1_1128 scatter_S50000x128_S800000x1_S800000x128_1_0_0_1 rfl rfl,
    rows1_eq, cols1_eq, zeros1_eq, weights1_eq]

/-- Branch 1 at node `n`, column `d`: from zero, the sum over the edges arriving at `n` of the source's features
    contracted with slice 1 of the weights, times the edge weight; plus entry `(1, d)` of the biases. -/
theorem branch1_apply (n : Fin 50000) (d : Fin 128) :
    val_main_v43 (F := Ideal) x0 x1 x2 x3 x4 x5 (ix2 n d)
      = ((0 : EReal) + ∑ e ∈ Finset.univ.filter (fun e : Fin 800000 => (val_main_v17 (F := Ideal) x2 (ix2 e 0)).toInt = (n.val : Int)),
            (∑ k : Fin 256, x0 (ix2 (clampRow nodes_pos (val_main_v11 (F := Ideal) x1) e) k) * x4 (ix3 (1 : Fin 7) k d)) * x3 (ix1 e))
        + x5 (ix2 (1 : Fin 7) d) := by
  rw [branch1_eq, hop_apply nodes_pos, zeros128_apply, bias1_apply]
  simp only [matProd_apply, weight1_apply, weights128_apply]

/-- Branch 2's weights are slice 2 of the stacked weights. -/
theorem weight2_apply (k : Fin 256) (d : Fin 128) :
    val_main_v46 (F := Ideal) x4 (ix2 k d) = x4 (ix3 (2 : Fin 7) k d) := by
  rw [val_main_v46_apply, val_main_v45_apply]
  refine congrArg x4 (funext fun a => Fin.ext ?_)
  match a with
  | ⟨0, _⟩ => rfl
  | ⟨1, _⟩ => show (k.val * 128 + d.val) / 128 % 256 = k.val; omega
  | ⟨2, _⟩ => show (k.val * 128 + d.val) % 128 = d.val; omega

/-- Branch 2's bias, spread over the rows, reads entry `(2, d)` of the stacked biases. -/
theorem bias2_apply (n : Fin 50000) (d : Fin 128) :
    val_main_v64 (F := Ideal) x5 (ix2 n d) = x5 (ix2 (2 : Fin 7) d) := by
  rw [val_main_v64_apply, val_main_v63_apply, val_main_v48_apply, val_main_v47_apply]
  refine congrArg x5 (funext fun a => Fin.ext ?_)
  match a with
  | ⟨0, _⟩ => rfl
  | ⟨1, _⟩ => show d.val % 128 = d.val; omega

/-- Branch 2 recomputes the same edge arrays as branch 0 from the same arguments. -/
theorem rows2_eq : val_main_v55 (F := Ideal) x1 = val_main_v11 (F := Ideal) x1 := rfl
theorem cols2_eq : val_main_v61 (F := Ideal) x2 = val_main_v17 (F := Ideal) x2 := rfl
theorem zeros2_eq : val_main_v60 (F := Ideal) = val_main_v16 (F := Ideal) := rfl
theorem weights2_eq : val_main_v58 (F := Ideal) x3 = val_main_v14 (F := Ideal) x3 := rfl

/-- Branch 2 is one propagation of the product of the features with its weights, plus its bias. -/
theorem branch2_eq (y : S50000x128.Idx) :
    val_main_v65 (F := Ideal) x0 x1 x2 x3 x4 x5 y
      = hop Facts₀.gather_S50000x128_S800000x1_S800000x128_1_0_n_n_0_1_1128_wf Facts₀.scatter_S50000x128_S800000x1_S800000x128_1_0_0_1_wf
          (val_main_v11 (F := Ideal) x1) (val_main_v17 (F := Ideal) x2) (val_main_v16 (F := Ideal)) (val_main_v14 (F := Ideal) x3)
          (matProd x0 (val_main_v46 (F := Ideal) x4)) y + val_main_v64 (F := Ideal) x5 y := by
  rw [val_main_v65_apply, Ideal.addf_def]
  refine congrArg (· + val_main_v64 (F := Ideal) x5 y) ?_
  unfold val_main_v62 val_main_v59 val_main_v56 val_main_v49
  rw [dotGeneral_eq_matProd _ ⟨rfl, rfl, rfl, rfl, rfl, rfl⟩,
    host_hop_eq Facts₀.gather_S50000x128_S800000x1_S800000x128_1_0_n_n_0_1_1128_wf Facts₀.scatter_S50000x128_S800000x1_S800000x128_1_0_0_1_wf
      gather_S50000x128_S800000x1_S800000x128_1_0_n_n_0_1_1128 scatter_S50000x128_S800000x1_S800000x128_1_0_0_1 rfl rfl,
    rows2_eq, cols2_eq, zeros2_eq, weights2_eq]

/-- Branch 2 at node `n`, column `d`: from zero, the sum over the edges arriving at `n` of the source's features
    contracted with slice 2 of the weights, times the edge weight; plus entry `(2, d)` of the biases. -/
theorem branch2_apply (n : Fin 50000) (d : Fin 128) :
    val_main_v65 (F := Ideal) x0 x1 x2 x3 x4 x5 (ix2 n d)
      = ((0 : EReal) + ∑ e ∈ Finset.univ.filter (fun e : Fin 800000 => (val_main_v17 (F := Ideal) x2 (ix2 e 0)).toInt = (n.val : Int)),
            (∑ k : Fin 256, x0 (ix2 (clampRow nodes_pos (val_main_v11 (F := Ideal) x1) e) k) * x4 (ix3 (2 : Fin 7) k d)) * x3 (ix1 e))
        + x5 (ix2 (2 : Fin 7) d) := by
  rw [branch2_eq, hop_apply nodes_pos, zeros128_apply, bias2_apply]
  simp only [matProd_apply, weight2_apply, weights128_apply]

/-- Branch 3's weights are slice 3 of the stacked weights. -/
theorem weight3_apply (k : Fin 256) (d : Fin 128) :
    val_main_v68 (F := Ideal) x4 (ix2 k d) = x4 (ix3 (3 : Fin 7) k d) := by
  rw [val_main_v68_apply, val_main_v67_apply]
  refine congrArg x4 (funext fun a => Fin.ext ?_)
  match a with
  | ⟨0, _⟩ => rfl
  | ⟨1, _⟩ => show (k.val * 128 + d.val) / 128 % 256 = k.val; omega
  | ⟨2, _⟩ => show (k.val * 128 + d.val) % 128 = d.val; omega

/-- Branch 3's bias, spread over the rows, reads entry `(3, d)` of the stacked biases. -/
theorem bias3_apply (n : Fin 50000) (d : Fin 128) :
    val_main_v86 (F := Ideal) x5 (ix2 n d) = x5 (ix2 (3 : Fin 7) d) := by
  rw [val_main_v86_apply, val_main_v85_apply, val_main_v70_apply, val_main_v69_apply]
  refine congrArg x5 (funext fun a => Fin.ext ?_)
  match a with
  | ⟨0, _⟩ => rfl
  | ⟨1, _⟩ => show d.val % 128 = d.val; omega

/-- Branch 3 recomputes the same edge arrays as branch 0 from the same arguments. -/
theorem rows3_eq : val_main_v77 (F := Ideal) x1 = val_main_v11 (F := Ideal) x1 := rfl
theorem cols3_eq : val_main_v83 (F := Ideal) x2 = val_main_v17 (F := Ideal) x2 := rfl
theorem zeros3_eq : val_main_v82 (F := Ideal) = val_main_v16 (F := Ideal) := rfl
theorem weights3_eq : val_main_v80 (F := Ideal) x3 = val_main_v14 (F := Ideal) x3 := rfl

/-- Branch 3 is one propagation of the product of the features with its weights, plus its bias. -/
theorem branch3_eq (y : S50000x128.Idx) :
    val_main_v87 (F := Ideal) x0 x1 x2 x3 x4 x5 y
      = hop Facts₀.gather_S50000x128_S800000x1_S800000x128_1_0_n_n_0_1_1128_wf Facts₀.scatter_S50000x128_S800000x1_S800000x128_1_0_0_1_wf
          (val_main_v11 (F := Ideal) x1) (val_main_v17 (F := Ideal) x2) (val_main_v16 (F := Ideal)) (val_main_v14 (F := Ideal) x3)
          (matProd x0 (val_main_v68 (F := Ideal) x4)) y + val_main_v86 (F := Ideal) x5 y := by
  rw [val_main_v87_apply, Ideal.addf_def]
  refine congrArg (· + val_main_v86 (F := Ideal) x5 y) ?_
  unfold val_main_v84 val_main_v81 val_main_v78 val_main_v71
  rw [dotGeneral_eq_matProd _ ⟨rfl, rfl, rfl, rfl, rfl, rfl⟩,
    host_hop_eq Facts₀.gather_S50000x128_S800000x1_S800000x128_1_0_n_n_0_1_1128_wf Facts₀.scatter_S50000x128_S800000x1_S800000x128_1_0_0_1_wf
      gather_S50000x128_S800000x1_S800000x128_1_0_n_n_0_1_1128 scatter_S50000x128_S800000x1_S800000x128_1_0_0_1 rfl rfl,
    rows3_eq, cols3_eq, zeros3_eq, weights3_eq]

/-- Branch 3 at node `n`, column `d`: from zero, the sum over the edges arriving at `n` of the source's features
    contracted with slice 3 of the weights, times the edge weight; plus entry `(3, d)` of the biases. -/
theorem branch3_apply (n : Fin 50000) (d : Fin 128) :
    val_main_v87 (F := Ideal) x0 x1 x2 x3 x4 x5 (ix2 n d)
      = ((0 : EReal) + ∑ e ∈ Finset.univ.filter (fun e : Fin 800000 => (val_main_v17 (F := Ideal) x2 (ix2 e 0)).toInt = (n.val : Int)),
            (∑ k : Fin 256, x0 (ix2 (clampRow nodes_pos (val_main_v11 (F := Ideal) x1) e) k) * x4 (ix3 (3 : Fin 7) k d)) * x3 (ix1 e))
        + x5 (ix2 (3 : Fin 7) d) := by
  rw [branch3_eq, hop_apply nodes_pos, zeros128_apply, bias3_apply]
  simp only [matProd_apply, weight3_apply, weights128_apply]

/-- Branch 4's weights are slice 4 of the stacked weights. -/
theorem weight4_apply (k : Fin 256) (d : Fin 128) :
    val_main_v90 (F := Ideal) x4 (ix2 k d) = x4 (ix3 (4 : Fin 7) k d) := by
  rw [val_main_v90_apply, val_main_v89_apply]
  refine congrArg x4 (funext fun a => Fin.ext ?_)
  match a with
  | ⟨0, _⟩ => rfl
  | ⟨1, _⟩ => show (k.val * 128 + d.val) / 128 % 256 = k.val; omega
  | ⟨2, _⟩ => show (k.val * 128 + d.val) % 128 = d.val; omega

/-- Branch 4's bias, spread over the rows, reads entry `(4, d)` of the stacked biases. -/
theorem bias4_apply (n : Fin 50000) (d : Fin 128) :
    val_main_v108 (F := Ideal) x5 (ix2 n d) = x5 (ix2 (4 : Fin 7) d) := by
  rw [val_main_v108_apply, val_main_v107_apply, val_main_v92_apply, val_main_v91_apply]
  refine congrArg x5 (funext fun a => Fin.ext ?_)
  match a with
  | ⟨0, _⟩ => rfl
  | ⟨1, _⟩ => show d.val % 128 = d.val; omega

/-- Branch 4 recomputes the same edge arrays as branch 0 from the same arguments. -/
theorem rows4_eq : val_main_v99 (F := Ideal) x1 = val_main_v11 (F := Ideal) x1 := rfl
theorem cols4_eq : val_main_v105 (F := Ideal) x2 = val_main_v17 (F := Ideal) x2 := rfl
theorem zeros4_eq : val_main_v104 (F := Ideal) = val_main_v16 (F := Ideal) := rfl
theorem weights4_eq : val_main_v102 (F := Ideal) x3 = val_main_v14 (F := Ideal) x3 := rfl

/-- Branch 4 is one propagation of the product of the features with its weights, plus its bias. -/
theorem branch4_eq (y : S50000x128.Idx) :
    val_main_v109 (F := Ideal) x0 x1 x2 x3 x4 x5 y
      = hop Facts₀.gather_S50000x128_S800000x1_S800000x128_1_0_n_n_0_1_1128_wf Facts₀.scatter_S50000x128_S800000x1_S800000x128_1_0_0_1_wf
          (val_main_v11 (F := Ideal) x1) (val_main_v17 (F := Ideal) x2) (val_main_v16 (F := Ideal)) (val_main_v14 (F := Ideal) x3)
          (matProd x0 (val_main_v90 (F := Ideal) x4)) y + val_main_v108 (F := Ideal) x5 y := by
  rw [val_main_v109_apply, Ideal.addf_def]
  refine congrArg (· + val_main_v108 (F := Ideal) x5 y) ?_
  unfold val_main_v106 val_main_v103 val_main_v100 val_main_v93
  rw [dotGeneral_eq_matProd _ ⟨rfl, rfl, rfl, rfl, rfl, rfl⟩,
    host_hop_eq Facts₀.gather_S50000x128_S800000x1_S800000x128_1_0_n_n_0_1_1128_wf Facts₀.scatter_S50000x128_S800000x1_S800000x128_1_0_0_1_wf
      gather_S50000x128_S800000x1_S800000x128_1_0_n_n_0_1_1128 scatter_S50000x128_S800000x1_S800000x128_1_0_0_1 rfl rfl,
    rows4_eq, cols4_eq, zeros4_eq, weights4_eq]

/-- Branch 4 at node `n`, column `d`: from zero, the sum over the edges arriving at `n` of the source's features
    contracted with slice 4 of the weights, times the edge weight; plus entry `(4, d)` of the biases. -/
theorem branch4_apply (n : Fin 50000) (d : Fin 128) :
    val_main_v109 (F := Ideal) x0 x1 x2 x3 x4 x5 (ix2 n d)
      = ((0 : EReal) + ∑ e ∈ Finset.univ.filter (fun e : Fin 800000 => (val_main_v17 (F := Ideal) x2 (ix2 e 0)).toInt = (n.val : Int)),
            (∑ k : Fin 256, x0 (ix2 (clampRow nodes_pos (val_main_v11 (F := Ideal) x1) e) k) * x4 (ix3 (4 : Fin 7) k d)) * x3 (ix1 e))
        + x5 (ix2 (4 : Fin 7) d) := by
  rw [branch4_eq, hop_apply nodes_pos, zeros128_apply, bias4_apply]
  simp only [matProd_apply, weight4_apply, weights128_apply]

/-- Branch 5's weights are slice 5 of the stacked weights. -/
theorem weight5_apply (k : Fin 256) (d : Fin 128) :
    val_main_v112 (F := Ideal) x4 (ix2 k d) = x4 (ix3 (5 : Fin 7) k d) := by
  rw [val_main_v112_apply, val_main_v111_apply]
  refine congrArg x4 (funext fun a => Fin.ext ?_)
  match a with
  | ⟨0, _⟩ => rfl
  | ⟨1, _⟩ => show (k.val * 128 + d.val) / 128 % 256 = k.val; omega
  | ⟨2, _⟩ => show (k.val * 128 + d.val) % 128 = d.val; omega

/-- Branch 5's bias, spread over the rows, reads entry `(5, d)` of the stacked biases. -/
theorem bias5_apply (n : Fin 50000) (d : Fin 128) :
    val_main_v130 (F := Ideal) x5 (ix2 n d) = x5 (ix2 (5 : Fin 7) d) := by
  rw [val_main_v130_apply, val_main_v129_apply, val_main_v114_apply, val_main_v113_apply]
  refine congrArg x5 (funext fun a => Fin.ext ?_)
  match a with
  | ⟨0, _⟩ => rfl
  | ⟨1, _⟩ => show d.val % 128 = d.val; omega

/-- Branch 5 recomputes the same edge arrays as branch 0 from the same arguments. -/
theorem rows5_eq : val_main_v121 (F := Ideal) x1 = val_main_v11 (F := Ideal) x1 := rfl
theorem cols5_eq : val_main_v127 (F := Ideal) x2 = val_main_v17 (F := Ideal) x2 := rfl
theorem zeros5_eq : val_main_v126 (F := Ideal) = val_main_v16 (F := Ideal) := rfl
theorem weights5_eq : val_main_v124 (F := Ideal) x3 = val_main_v14 (F := Ideal) x3 := rfl

/-- Branch 5 is one propagation of the product of the features with its weights, plus its bias. -/
theorem branch5_eq (y : S50000x128.Idx) :
    val_main_v131 (F := Ideal) x0 x1 x2 x3 x4 x5 y
      = hop Facts₀.gather_S50000x128_S800000x1_S800000x128_1_0_n_n_0_1_1128_wf Facts₀.scatter_S50000x128_S800000x1_S800000x128_1_0_0_1_wf
          (val_main_v11 (F := Ideal) x1) (val_main_v17 (F := Ideal) x2) (val_main_v16 (F := Ideal)) (val_main_v14 (F := Ideal) x3)
          (matProd x0 (val_main_v112 (F := Ideal) x4)) y + val_main_v130 (F := Ideal) x5 y := by
  rw [val_main_v131_apply, Ideal.addf_def]
  refine congrArg (· + val_main_v130 (F := Ideal) x5 y) ?_
  unfold val_main_v128 val_main_v125 val_main_v122 val_main_v115
  rw [dotGeneral_eq_matProd _ ⟨rfl, rfl, rfl, rfl, rfl, rfl⟩,
    host_hop_eq Facts₀.gather_S50000x128_S800000x1_S800000x128_1_0_n_n_0_1_1128_wf Facts₀.scatter_S50000x128_S800000x1_S800000x128_1_0_0_1_wf
      gather_S50000x128_S800000x1_S800000x128_1_0_n_n_0_1_1128 scatter_S50000x128_S800000x1_S800000x128_1_0_0_1 rfl rfl,
    rows5_eq, cols5_eq, zeros5_eq, weights5_eq]

/-- Branch 5 at node `n`, column `d`: from zero, the sum over the edges arriving at `n` of the source's features
    contracted with slice 5 of the weights, times the edge weight; plus entry `(5, d)` of the biases. -/
theorem branch5_apply (n : Fin 50000) (d : Fin 128) :
    val_main_v131 (F := Ideal) x0 x1 x2 x3 x4 x5 (ix2 n d)
      = ((0 : EReal) + ∑ e ∈ Finset.univ.filter (fun e : Fin 800000 => (val_main_v17 (F := Ideal) x2 (ix2 e 0)).toInt = (n.val : Int)),
            (∑ k : Fin 256, x0 (ix2 (clampRow nodes_pos (val_main_v11 (F := Ideal) x1) e) k) * x4 (ix3 (5 : Fin 7) k d)) * x3 (ix1 e))
        + x5 (ix2 (5 : Fin 7) d) := by
  rw [branch5_eq, hop_apply nodes_pos, zeros128_apply, bias5_apply]
  simp only [matProd_apply, weight5_apply, weights128_apply]

/-- Branch 6's weights are slice 6 of the stacked weights. -/
theorem weight6_apply (k : Fin 256) (d : Fin 128) :
    val_main_v134 (F := Ideal) x4 (ix2 k d) = x4 (ix3 (6 : Fin 7) k d) := by
  rw [val_main_v134_apply, val_main_v133_apply]
  refine congrArg x4 (funext fun a => Fin.ext ?_)
  match a with
  | ⟨0, _⟩ => rfl
  | ⟨1, _⟩ => show (k.val * 128 + d.val) / 128 % 256 = k.val; omega
  | ⟨2, _⟩ => show (k.val * 128 + d.val) % 128 = d.val; omega

/-- Branch 6's bias, spread over the rows, reads entry `(6, d)` of the stacked biases. -/
theorem bias6_apply (n : Fin 50000) (d : Fin 128) :
    val_main_v152 (F := Ideal) x5 (ix2 n d) = x5 (ix2 (6 : Fin 7) d) := by
  rw [val_main_v152_apply, val_main_v151_apply, val_main_v136_apply, val_main_v135_apply]
  refine congrArg x5 (funext fun a => Fin.ext ?_)
  match a with
  | ⟨0, _⟩ => rfl
  | ⟨1, _⟩ => show d.val % 128 = d.val; omega

/-- Branch 6 recomputes the same edge arrays as branch 0 from the same arguments. -/
theorem rows6_eq : val_main_v143 (F := Ideal) x1 = val_main_v11 (F := Ideal) x1 := rfl
theorem cols6_eq : val_main_v149 (F := Ideal) x2 = val_main_v17 (F := Ideal) x2 := rfl
theorem zeros6_eq : val_main_v148 (F := Ideal) = val_main_v16 (F := Ideal) := rfl
theorem weights6_eq : val_main_v146 (F := Ideal) x3 = val_main_v14 (F := Ideal) x3 := rfl

/-- Branch 6 is one propagation of the product of the features with its weights, plus its bias. -/
theorem branch6_eq (y : S50000x128.Idx) :
    val_main_v153 (F := Ideal) x0 x1 x2 x3 x4 x5 y
      = hop Facts₀.gather_S50000x128_S800000x1_S800000x128_1_0_n_n_0_1_1128_wf Facts₀.scatter_S50000x128_S800000x1_S800000x128_1_0_0_1_wf
          (val_main_v11 (F := Ideal) x1) (val_main_v17 (F := Ideal) x2) (val_main_v16 (F := Ideal)) (val_main_v14 (F := Ideal) x3)
          (matProd x0 (val_main_v134 (F := Ideal) x4)) y + val_main_v152 (F := Ideal) x5 y := by
  rw [val_main_v153_apply, Ideal.addf_def]
  refine congrArg (· + val_main_v152 (F := Ideal) x5 y) ?_
  unfold val_main_v150 val_main_v147 val_main_v144 val_main_v137
  rw [dotGeneral_eq_matProd _ ⟨rfl, rfl, rfl, rfl, rfl, rfl⟩,
    host_hop_eq Facts₀.gather_S50000x128_S800000x1_S800000x128_1_0_n_n_0_1_1128_wf Facts₀.scatter_S50000x128_S800000x1_S800000x128_1_0_0_1_wf
      gather_S50000x128_S800000x1_S800000x128_1_0_n_n_0_1_1128 scatter_S50000x128_S800000x1_S800000x128_1_0_0_1 rfl rfl,
    rows6_eq, cols6_eq, zeros6_eq, weights6_eq]

/-- Branch 6 at node `n`, column `d`: from zero, the sum over the edges arriving at `n` of the source's features
    contracted with slice 6 of the weights, times the edge weight; plus entry `(6, d)` of the biases. -/
theorem branch6_apply (n : Fin 50000) (d : Fin 128) :
    val_main_v153 (F := Ideal) x0 x1 x2 x3 x4 x5 (ix2 n d)
      = ((0 : EReal) + ∑ e ∈ Finset.univ.filter (fun e : Fin 800000 => (val_main_v17 (F := Ideal) x2 (ix2 e 0)).toInt = (n.val : Int)),
            (∑ k : Fin 256, x0 (ix2 (clampRow nodes_pos (val_main_v11 (F := Ideal) x1) e) k) * x4 (ix3 (6 : Fin 7) k d)) * x3 (ix1 e))
        + x5 (ix2 (6 : Fin 7) d) := by
  rw [branch6_eq, hop_apply nodes_pos, zeros128_apply, bias6_apply]
  simp only [matProd_apply, weight6_apply, weights128_apply]

/-! ## The pre-activation and the result -/

/-- The pre-activation array at node `n`, column `d`: the seven branch values added in order onto zero. -/
theorem preact_apply (n : Fin 50000) (d : Fin 128) :
    val_main_v154 (F := Ideal) x0 x1 x2 x3 x4 x5 (ix2 n d)
      = (0 : EReal)
        + val_main_v21 (F := Ideal) x0 x1 x2 x3 x4 x5 (ix2 n d) + val_main_v43 (F := Ideal) x0 x1 x2 x3 x4 x5 (ix2 n d)
        + val_main_v65 (F := Ideal) x0 x1 x2 x3 x4 x5 (ix2 n d) + val_main_v87 (F := Ideal) x0 x1 x2 x3 x4 x5 (ix2 n d)
        + val_main_v109 (F := Ideal) x0 x1 x2 x3 x4 x5 (ix2 n d) + val_main_v131 (F := Ideal) x0 x1 x2 x3 x4 x5 (ix2 n d)
        + val_main_v153 (F := Ideal) x0 x1 x2 x3 x4 x5 (ix2 n d) := by
  rw [val_main_v154_apply, val_main_v132_apply, val_main_v110_apply, val_main_v88_apply, val_main_v66_apply,
    val_main_v44_apply, val_main_v22_apply, start128_apply]
  simp only [Ideal.addf_def]

/-- The rectifier the reference calls is `relu`. -/
theorem relu_eq :
    (maximumf (F := Ideal) (val_main_v154 (F := Ideal) x0 x1 x2 x3 x4 x5) (val_main_call0_v0 (F := Ideal)) : FVec Ideal S50000x128 .f32)
      = (relu (val_main_v154 (F := Ideal) x0 x1 x2 x3 x4 x5 : Arr 50000 128) : FVec Ideal S50000x128 .f32) := funext fun y => by
  rw [maximumf_apply, relu_apply, reluZero_apply]

/-- The result: one propagation, over the 64 output columns, of the rectified pre-activation times the output weights;
    plus the output bias on every row. -/
theorem result_eq (y : S50000x64.Idx) :
    val_main_v172 (F := Ideal) x0 x1 x2 x3 x4 x5 x6 x7 y
      = hop Facts₀.gather_S50000x64_S800000x1_S800000x64_1_0_n_n_0_1_164_wf Facts₀.scatter_S50000x64_S800000x1_S800000x64_1_0_0_1_wf
          (val_main_v162 (F := Ideal) x1) (val_main_v168 (F := Ideal) x2) (val_main_v167 (F := Ideal)) (val_main_v165 (F := Ideal) x3)
          (matProd (relu (val_main_v154 (F := Ideal) x0 x1 x2 x3 x4 x5)) x6) y + val_main_v171 (F := Ideal) x7 y := by
  rw [val_main_v172_apply, Ideal.addf_def]
  refine congrArg (· + val_main_v171 (F := Ideal) x7 y) ?_
  unfold val_main_v169 val_main_v166 val_main_v163 val_main_v156 val_main_v155
  rw [relu_eq, dotGeneral_eq_matProd _ ⟨rfl, rfl, rfl, rfl, rfl, rfl⟩,
    host_hop_eq Facts₀.gather_S50000x64_S800000x1_S800000x64_1_0_n_n_0_1_164_wf Facts₀.scatter_S50000x64_S800000x1_S800000x64_1_0_0_1_wf
      gather_S50000x64_S800000x1_S800000x64_1_0_n_n_0_1_164 scatter_S50000x64_S800000x1_S800000x64_1_0_0_1 rfl rfl]

/-- The output layer recomputes the same edge rows as the branches from the same arguments. -/
theorem rowsOut_eq : val_main_v162 (F := Ideal) x1 = val_main_v11 (F := Ideal) x1 := rfl
theorem colsOut_eq : val_main_v168 (F := Ideal) x2 = val_main_v17 (F := Ideal) x2 := rfl

end Cert.ReferenceIdeal.GcnRef

end
-- ==== Proof.BranchSum.lean ====
/-
  Seven propagated branches added up are one propagation of the added-up weights.

  A graph-convolution branch `j` computes, at node `n` and hidden column `d`,

      t j  =  ( ∑ e ∈ S, (∑ k, a e k · W j k) · ν e )  +  b j

  where `S` is the set of edges arriving at `n`, `a e k` the source node's feature `k`, `ν e` the edge's weight,
  `W j k` branch `j`'s weight from feature `k` to column `d` and `b j` its bias there. The seven branches are added one
  after the other onto a zero array. Because the edges, the features and the edge weights are the same in every
  branch, the sum over the branches can be taken first, on the weights and on the biases:

      ∑ j, t j  =  ( ∑ e ∈ S, (∑ k, a e k · ∑ j, W j k) · ν e )  +  ∑ j, b j.

  This is distributivity used three times (a factor into the sum over `j`, the sum over `j` past the sums over `k`
  and over `e`), so it is a law of the REALS: on the extended reals a product does not distribute over `⊤ + ⊥`. It
  is proved over ℝ (`branches_real`) and then stated on the extended reals for coerced real entries
  (`branches_ereal`), with the zeros the two programs start their sums from left where the programs have them.
-/
import proofs.«157736_j88742614270553_1_alg».proof.Proof.LibRealSum

noncomputable section

open scoped BigOperators

namespace Cert.Gcn.BranchSum

open Cert.Lib.RealSum

/-- Over the reals: one propagation of the summed weights plus the summed biases is the sum of the branches. -/
theorem branches_real {E K : Type*} [Fintype K] (S : Finset E) (a : E → K → ℝ) (ν : E → ℝ)
    (W : Fin 7 → K → ℝ) (b : Fin 7 → ℝ) :
    (∑ e ∈ S, (∑ k, a e k * ∑ j : Fin 7, W j k) * ν e) + ∑ j : Fin 7, b j
      = ∑ j : Fin 7, ((∑ e ∈ S, (∑ k, a e k * W j k) * ν e) + b j) := by
  rw [Finset.sum_add_distrib]
  refine congrArg (· + ∑ j : Fin 7, b j) ?_
  -- the sum over the branches moves inside the sum over the edges,
  rw [Finset.sum_comm]
  refine Finset.sum_congr rfl fun e _ => ?_
  -- past the edge's weight,
  rw [← Finset.sum_mul]
  refine congrArg (· * ν e) ?_
  -- inside the sum over the features,
  rw [Finset.sum_comm]
  refine Finset.sum_congr rfl fun k _ => ?_
  -- and the feature is a common factor.
  rw [Finset.mul_sum]

/-- On the extended reals, for real entries: the kernel's side — one propagation (from zero) of the product with the
    summed weights (each summed from zero), plus the biases summed from zero — is the reference's side — the seven
    branches, each a propagation from zero plus its bias, added in order onto zero. -/
theorem branches_ereal {E K : Type*} [Fintype K] (S : Finset E) (a : E → K → ℝ) (ν : E → ℝ)
    (W : Fin 7 → K → ℝ) (b : Fin 7 → ℝ) :
    ((0 : EReal) + ∑ e ∈ S, (∑ k, (a e k : EReal) * ((0 : EReal) + ∑ j : Fin 7, (W j k : EReal))) * (ν e : EReal))
        + ((0 : EReal) + ∑ j : Fin 7, (b j : EReal))
      = (0 : EReal)
        + (((0 : EReal) + ∑ e ∈ S, (∑ k, (a e k : EReal) * (W 0 k : EReal)) * (ν e : EReal)) + (b 0 : EReal))
        + (((0 : EReal) + ∑ e ∈ S, (∑ k, (a e k : EReal) * (W 1 k : EReal)) * (ν e : EReal)) + (b 1 : EReal))
        + (((0 : EReal) + ∑ e ∈ S, (∑ k, (a e k : EReal) * (W 2 k : EReal)) * (ν e : EReal)) + (b 2 : EReal))
        + (((0 : EReal) + ∑ e ∈ S, (∑ k, (a e k : EReal) * (W 3 k : EReal)) * (ν e : EReal)) + (b 3 : EReal))
        + (((0 : EReal) + ∑ e ∈ S, (∑ k, (a e k : EReal) * (W 4 k : EReal)) * (ν e : EReal)) + (b 4 : EReal))
        + (((0 : EReal) + ∑ e ∈ S, (∑ k, (a e k : EReal) * (W 5 k : EReal)) * (ν e : EReal)) + (b 5 : EReal))
        + (((0 : EReal) + ∑ e ∈ S, (∑ k, (a e k : EReal) * (W 6 k : EReal)) * (ν e : EReal)) + (b 6 : EReal)) := by
  -- every entry is a real, so both sides are coercions of real expressions
  simp only [zero_add, ← EReal.coe_mul, ← coe_sum, ← EReal.coe_add]
  refine congrArg _ ?_
  rw [branches_real S a ν W b, Fin.sum_univ_seven]

end Cert.Gcn.BranchSum

end
-- ==== Proof.Bridge.lean ====
/-
  The kernel's function and the reference's function are one function, where the float inputs are finite.

  Both programs end with the same output layer applied to a `[50000, 128]` pre-activation array `A`: rectify, multiply by
  the output weights, propagate along the edges, add the output bias. They differ in how `A` is made. The reference adds
  up seven branches `hop (x · W_j) + b_j`; the kernel first adds up the weights and the biases over the branches and runs
  ONE branch, `hop (x · ∑_j W_j) + ∑_j b_j`. At a node `n` and column `d` both are sums over the same edges — those whose
  target index reads `n`, each reading the source row its source index names — so the two agree by the law of
  `BranchSum`, which is distributivity and so needs the entries of `x`, the edge weights, `W` and `b` to be real.
-/
import proofs.«157736_j88742614270553_1_alg».proof.Proof.KernelReads
import proofs.«157736_j88742614270553_1_alg».proof.Proof.RefValue
import proofs.«157736_j88742614270553_1_alg».proof.Proof.BranchSum

set_option maxRecDepth 16384

noncomputable section

open scoped BigOperators

namespace Cert.Gcn.Bridge

open Idealize.ShloMosaic Idealize.ShloMosaic.ValueIdx Cert.Gcn Cert.Lib.Propagate Cert.Lib.RowOps Cert.Lib.RealSum
open Cert.KernelIdeal.GcnValue Cert.ReferenceIdeal.Read Cert.ReferenceIdeal.GcnRef Cert.Gcn.BranchSum

/-- Both programs compute the edges' source rows from the source indices in the same way, -/
theorem src_eq (a1 : IVec ⟨1, ![800000]⟩ 32) : srcRows a1 = val_main_v11 (F := Ideal) a1 := rfl

/-- and the edges' target rows from the target indices. -/
theorem dst_eq (a2 : IVec ⟨1, ![800000]⟩ 32) : dstRows a2 = val_main_v17 (F := Ideal) a2 := rfl

/-- THE PRE-ACTIVATIONS AGREE: one propagation of the product with the summed weights, plus the summed biases, is the
    seven branches added up — at every node and column, for real entries. -/
theorem preact_eq (a0 : FVec Ideal ⟨2, ![50000, 256]⟩ .f32) (a1 a2 : IVec ⟨1, ![800000]⟩ 32) (a3 : FVec Ideal ⟨1, ![800000]⟩ .f32) (a4 : FVec Ideal ⟨3, ![7, 256, 128]⟩ .f32) (a5 : FVec Ideal ⟨2, ![7, 128]⟩ .f32)
    (h0 : ∀ i, IsReal (a0 i)) (h3 : ∀ i, IsReal (a3 i)) (h4 : ∀ i, IsReal (a4 i)) (h5 : ∀ i, IsReal (a5 i)) :
    addRow (hop128 a1 a2 a3 (matProd a0 (wSum a4))) (bSum a5) = val_main_v154 (F := Ideal) a0 a1 a2 a3 a4 a5 := by
  choose xr hxr using h0
  choose wr hwr using h3
  choose Wr hWr using h4
  choose br hbr using h5
  funext y
  obtain ⟨n, d, rfl⟩ : ∃ (n : Fin 50000) (d : Fin 128), y = ix2 n d := ⟨y 0, y 1, eq_ix2 y⟩
  -- the reference's side: the seven branch values, in order, onto zero
  rw [preact_apply, branch0_apply, branch1_apply, branch2_apply, branch3_apply, branch4_apply, branch5_apply, branch6_apply]
  -- the kernel's side: one propagation from zero, plus the summed bias
  rw [addRow_apply]
  unfold hop128
  rw [hop_apply nodes_pos, Cert.KernelIdeal.GcnValue.zeros128_apply, bSum_apply, src_eq, dst_eq]
  simp only [matProd_apply, wSum_apply, edgeW128_apply, hxr, hwr, hWr, hbr]
  -- both are now spelt over real entries: the law of the branches
  have key := branches_ereal
    (Finset.univ.filter (fun e : Fin 800000 => (val_main_v17 (F := Ideal) a2 (ix2 e 0)).toInt = (n.val : Int)))
    (fun e k => xr (ix2 (clampRow nodes_pos (val_main_v11 (F := Ideal) a1) e) k)) (fun e => wr (ix1 e))
    (fun j k => Wr (ix3 j k d)) (fun j => br (ix2 j d))
  rw [key]

/-- THE RESULTS AGREE: the kernel's function of the arguments is the reference's. -/
theorem out_eq (a0 : FVec Ideal ⟨2, ![50000, 256]⟩ .f32) (a1 a2 : IVec ⟨1, ![800000]⟩ 32) (a3 : FVec Ideal ⟨1, ![800000]⟩ .f32) (a4 : FVec Ideal ⟨3, ![7, 256, 128]⟩ .f32) (a5 : FVec Ideal ⟨2, ![7, 128]⟩ .f32)
    (a6 : FVec Ideal ⟨2, ![128, 64]⟩ .f32) (a7 : FVec Ideal ⟨1, ![64]⟩ .f32)
    (h0 : ∀ i, IsReal (a0 i)) (h3 : ∀ i, IsReal (a3 i)) (h4 : ∀ i, IsReal (a4 i)) (h5 : ∀ i, IsReal (a5 i)) :
    kernelOut a0 a1 a2 a3 a4 a5 a6 a7 = val_main_v172 (F := Ideal) a0 a1 a2 a3 a4 a5 a6 a7 := by
  funext y
  obtain ⟨n, q, rfl⟩ : ∃ (n : Fin 50000) (q : Fin 64), y = ix2 n q := ⟨y 0, y 1, eq_ix2 y⟩
  -- the reference's output layer, over the kernel's pre-activation
  rw [Cert.ReferenceIdeal.GcnRef.result_eq, rowsOut_eq, colsOut_eq, ← preact_eq a0 a1 a2 a3 a4 a5 h0 h3 h4 h5,
    hop_apply nodes_pos, Cert.ReferenceIdeal.GcnRef.zeros64_apply, Cert.ReferenceIdeal.GcnRef.outBias_apply]
  -- the kernel's output layer
  unfold kernelOut
  rw [addRow_apply, Cert.KernelIdeal.GcnValue.outBias_apply]
  unfold hop64
  rw [hop_apply nodes_pos, Cert.KernelIdeal.GcnValue.zeros64_apply, src_eq, dst_eq]
  simp only [edgeW64_apply, weights64_apply]

end Cert.Gcn.Bridge

end
-- ==== Proof.lean ====
/-
  A two-layer graph convolution over 50000 nodes and 800000 edges: seven parallel branches, a rectifier, an output layer.

  With `hop F` the propagation of a node array `F` along the edges (`hop F (n, ·) = ∑ { e : target e = n } weight e · F (source e, ·)`,
  computed on the host by a gather, a product and an accumulating scatter), the reference is

      out = hop (relu (∑ j < 7, (hop (x · W_j) + b_j)) · W8) + b8.

  The kernel uses that `hop` and the matrix product are linear and that every branch has the same edges: it sums the
  weights and the biases over the branches on the host, and computes

      out = hop (relu (hop (x · ∑ j, W_j) + ∑ j, b_j) · W8) + b8

  with the two matrix products (the second fused with the bias and the rectifier) and the last bias add as tiled regions
  of ten blocks of 5000 rows, the operands rounded to bf16 on the way into the products. At the ideal values the rounding
  is the identity, each region's output array is a closed form of its input arrays (`GcnRegion0`, `GcnRegion1`,
  `GcnRegion2`), and the kernel's result is `kernelOut` of its arguments (`GcnValue.result_eq`). The reference's result is
  the same output layer applied to its seven-branch sum (`GcnRef`). The two pre-activations agree entry by entry by
  distributivity (`BranchSum`, `Bridge.preact_eq`) — a law of the reals, so the proof uses that the precondition makes every
  entry of `x`, of the edge weights, of `W` and of `b` a real number (`GcnFinite`) — and then so do the results
  (`Bridge.out_eq`). The index arrays may hold anything: both programs normalise, clamp and drop out-of-range edges alike.

  The three frames are the generated frame certificates (the reference's is its generated run with the result dropped); the
  ideal pass rewrote no operation, so the kernel's idealization is its own text read at the ideal values.
-/
import proofs.«157736_j88742614270553_1_alg».proof.Defs
import proofs.«157736_j88742614270553_1_alg».proof.Proof.Gen.Kernel
import proofs.«157736_j88742614270553_1_alg».proof.Proof.Gen.Kernel.Skeleton
import proofs.«157736_j88742614270553_1_alg».proof.Proof.Gen.Kernel.Launch
import proofs.«157736_j88742614270553_1_alg».proof.Proof.Gen.Kernel.Points
import proofs.«157736_j88742614270553_1_alg».proof.Proof.Gen.Kernel.Frame
import proofs.«157736_j88742614270553_1_alg».proof.Proof.Gen.KernelIdeal
import proofs.«157736_j88742614270553_1_alg».proof.Proof.Gen.KernelIdeal.Skeleton
import proofs.«157736_j88742614270553_1_alg».proof.Proof.Gen.KernelIdeal.Launch
import proofs.«157736_j88742614270553_1_alg».proof.Proof.Gen.KernelIdeal.Points
import proofs.«157736_j88742614270553_1_alg».proof.Proof.Gen.KernelIdeal.Frame
import proofs.«157736_j88742614270553_1_alg».proof.Proof.Gen.ReferenceIdeal
import proofs.«157736_j88742614270553_1_alg».proof.Proof.Gen.Pre_finite_inputs
import proofs.«157736_j88742614270553_1_alg».proof.Proof.Gen.ReferenceIdeal.Run
import proofs.«157736_j88742614270553_1_alg».proof.Proof.Gen.ReferenceIdeal.Read
import proofs.«157736_j88742614270553_1_alg».proof.Proof.KernelRun
import proofs.«157736_j88742614270553_1_alg».proof.Proof.KernelValue
import proofs.«157736_j88742614270553_1_alg».proof.Proof.Finite
import proofs.«157736_j88742614270553_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame certificate. -/
theorem frame_kernel : Cert.frame_Kernel := fun m ρ _ => Cert.Kernel.Gen.frame m ρ

/-- The idealized kernel runs and keeps its arguments: the generated frame certificate. -/
theorem frame_kernelIdeal : Cert.frame_KernelIdeal := fun m ρ _ => Cert.KernelIdeal.Gen.frame m ρ

/-- The idealized reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, of which the precondition holds, both idealized programs run and end with the
    same result array: `kernelOut` of the arguments. -/
theorem algebraic : Cert.algebraic_KernelIdeal_ReferenceIdeal := by
  intro m ρ m' ρ' hpre hagree
  refine ⟨fun c => Cert.KernelIdeal.GcnValue.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · -- the kernel: its run, the result read off the last boundary's contents
    exact (θ_run Cert.KernelIdeal.defs _ _).mono
      (fun r h c => ⟨(h c).1.trans (Cert.KernelIdeal.GcnValue.result_eq m ρ c), (h c).2⟩)
      (Cert.KernelIdeal.GcnRun.run_result m ρ)
  · -- the reference: its generated run, the result's term identified with the kernel's function
    refine (θ_run Cert.ReferenceIdeal.defs _ _).mono (fun r h c => ⟨?_, (h c).2⟩)
      (Cert.ReferenceIdeal.Value.run (F := Ideal) m' ρ')
    obtain ⟨e0, e1, e2, e3, e4, e5, e6, e7⟩ := hagree c
    obtain ⟨r0, r3, r4, r5⟩ := Cert.Pre_finite_inputs.GcnFinite.reals_of_pre _ _ _ _ _ _ _ _ (hpre c)
    rw [(h c).1, Cert.ReferenceIdeal.Read.val_main_v172_eq, e0, e1, e2, e3, e4, e5, e6, e7]
    exact (Cert.Gcn.Bridge.out_eq _ _ _ _ _ _ _ _ r0 r3 r4 r5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
